-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v88_1)) (v1 : (c : Dev Cert.KernelIdeal.nD) → Buf (Elt Ideal) ((c.tc : Thread Cert.KernelIdeal.nD Cert.KernelIdeal.τ).loc Cert.KernelIdeal.main_v88_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88_1) = v0 c
          ∧ r.2.mem ((c.tc : Thread Cert.KernelIdeal.nD Cert.KernelIdeal.τ).loc Cert.KernelIdeal.main_v88_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S2 .f32) (main_v63 : IVec S_ 1) (main_v67 : IVec S_ 1) : IVec S_ 1 :=
  let main_v68 : IVec S_ 1 := andi main_v63 main_v67
  let main_v69 : FVec F S2 .f32 := Host.absf main_arg15
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg12 : FVec F S32x16 .f32) (main_arg13 : FVec F S16 .f32) (main_arg14 : FVec F S16x2 .f32) (main_arg15 : FVec F S2 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x16 .f32 := Host.absf main_arg12
  let main_cst_20 : FVec F S_ .f32 := constant S_ .f32 0x7F800000#32
  let main_v55 : FVec F S32x16 .f32 := broadcastInDim S32x16 ![] bcast_S_S32x16 main_cst_20
  let main_v56 : IVec S32x16 1 := cmpf .olt main_v54 main_v55
  let main_c_21 : IVec S_ 1 := constantI S_ 1 1#1
  let main_v57 : IVec S_ 1 := (fun x v => Host.reduce IntOp.andi x v reducesTo_S32x16_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x2 .f32 := Host.absf main_arg14
  let main_cst_24 : FVec F S_ .f32 := constant S_ .f32 0x7F800000#32
  let main_v65 : FVec F S16x2 .f32 := broadcastInDim S16x2 ![] bcast_S_S16x2 main_cst_24
  let main_v66 : IVec S16x2 1 := cmpf .olt main_v64 main_v65
  let main_c_25 : IVec S_ 1 := constantI S_ 1 1#1
  let main_v67 : IVec S_ 1 := (fun x v => Host.reduce IntOp.andi x v reducesTo_S16x2_S_d0_1 h_S_) main_v66 main_c_25
  fn_part4 (F := F) main_arg15 main_v63 main_v67

def fn_part2 {F : FTy → Type} [FloatOps F] (main_arg8 : FVec F S32x32 .f32) (main_arg9 : FVec F S32 .f32) (main_arg10 : FVec F S32x32 .f32) (main_arg11 : FVec F S32 .f32) (main_arg12 : FVec F S32x16 .f32) (main_arg13 : FVec F S16 .f32) (main_arg14 : FVec F S16x2 .f32) (main_arg15 : FVec F S2 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg10
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_v48 main_v49 main_v50

def fn_part1 {F : FTy → Type} [FloatOps F] (main_arg5 : FVec F S64x32 .f32) (main_arg6 : FVec F S64x32 .f32) (main_arg7 : FVec F S32 .f32) (main_arg8 : FVec F S32x32 .f32) (main_arg9 : FVec F S32 .f32) (main_arg10 : FVec F S32x32 .f32) (main_arg11 : FVec F S32 .f32) (main_arg12 : FVec F S32x16 .f32) (main_arg13 : FVec F S16 .f32) (main_arg14 : FVec F S16x2 .f32) (main_arg15 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S128x64 .f32) (main_arg3 : FVec F S128x64 .f32) (main_arg4 : FVec F S64 .f32) (main_arg5 : FVec F S64x32 .f32) (main_arg6 : FVec F S64x32 .f32) (main_arg7 : FVec F S32 .f32) (main_arg8 : FVec F S32x32 .f32) (main_arg9 : FVec F S32 .f32) (main_arg10 : FVec F S32x32 .f32) (main_arg11 : FVec F S32 .f32) (main_arg12 : FVec F S32x16 .f32) (main_arg13 : FVec F S16 .f32) (main_arg14 : FVec F S16x2 .f32) (main_arg15 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x32 : Shape := ⟨2, ![1, 32]⟩
abbrev S50000x32 : Shape := ⟨2, ![50000, 32]⟩
abbrev S5000x32 : Shape := ⟨2, ![5000, 32]⟩
abbrev S1x16 : Shape := ⟨2, ![1, 16]⟩
abbrev S1x2 : Shape := ⟨2, ![1, 2]⟩
abbrev S50000x2 : Shape := ⟨2, ![50000, 2]⟩
abbrev S1000x32 : Shape := ⟨2, ![1000, 32]⟩
abbrev S1000x2 : Shape := ⟨2, ![1000, 2]⟩
abbrev S1000x16 : Shape := ⟨2, ![1000, 16]⟩

abbrev nBuf : Space → Nat
  | .hbm => 125
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S32x16, .f32⟩
  | .hbm, ⟨13, _⟩ => ⟨S16, .f32⟩
  | .hbm, ⟨14, _⟩ => ⟨S16x2, .f32⟩
  | .hbm, ⟨15, _⟩ => ⟨S2, .f32⟩
  | .hbm, ⟨16, _⟩ => ⟨S50000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S1x800000, .i32⟩
  | .hbm, ⟨21, _⟩ => ⟨S800000, .i32⟩
  | .hbm, ⟨22, _⟩ => ⟨S850000, .i32⟩
  | .hbm, ⟨23, _⟩ => ⟨S_, .f32⟩
  | .hbm, ⟨24, _⟩ => ⟨S850000, .f32⟩
  | .hbm, ⟨25, _⟩ => ⟨S_, .f32⟩
  | .hbm, ⟨26, _⟩ => ⟨S50000, .f32⟩
  | .hbm, ⟨27, _⟩ => ⟨S850000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x1, .f32⟩
  | .hbm, ⟨77, _⟩ => ⟨S850000x128, .f32⟩
  | .hbm, ⟨78, _⟩ => ⟨S850000x128, .f32⟩
  | .hbm, ⟨79, _⟩ => ⟨S_, .f32⟩
  | .hbm, ⟨80, _⟩ => ⟨S50000x128, .f32⟩
  | .hbm, ⟨81, _⟩ => ⟨S850000x1, .i32⟩
  | .hbm, ⟨82, _⟩ => ⟨S50000x128, .f32⟩
  | .hbm, ⟨83, _⟩ => ⟨S1x64, .f32⟩
  | .hbm, ⟨84, _⟩ => ⟨S50000x64, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000x64, .f32⟩
  | .hbm, ⟨94, _⟩ => ⟨S850000x1, .f32⟩
  | .hbm, ⟨95, _⟩ => ⟨S850000x64, .f32⟩
  | .hbm, ⟨96, _⟩ => ⟨S850000x64, .f32⟩
  | .hbm, ⟨97, _⟩ => ⟨S_, .f32⟩
  | .hbm, ⟨98, _⟩ => ⟨S50000x64, .f32⟩
  | .hbm, ⟨99, _⟩ => ⟨S850000x1, .i32⟩
  | .hbm, ⟨100, _⟩ => ⟨S50000x64, .f32⟩
  | .hbm, ⟨101, _⟩ => ⟨S_, .i32⟩
  | .hbm, ⟨102, _⟩ => ⟨S850000, .i32⟩
  | .hbm, ⟨103, _⟩ => ⟨S850000, .i1⟩
  | .hbm, ⟨104, _⟩ => ⟨S_, .i32⟩
  | .hbm, ⟨105, _⟩ => ⟨S850000, .i32⟩
  | .hbm, ⟨106, _⟩ => ⟨S850000, .i32⟩
  | .hbm, ⟨107, _⟩ => ⟨S850000, .i32⟩
  | .hbm, ⟨108, _⟩ => ⟨S850000x1, .i32⟩
  | .hbm, ⟨109, _⟩ => ⟨S850000x64, .f32⟩
  | .hbm, ⟨110, _⟩ => ⟨S850000x1, .f32⟩
  | .hbm, ⟨111, _⟩ => ⟨S850000x64, .f32⟩
  | .hbm, ⟨112, _⟩ => ⟨S850000x64, .f32⟩
  | .hbm, ⟨113, _⟩ => ⟨S_, .f32⟩
  | .hbm, ⟨114, _⟩ => ⟨S50000x64, .f32⟩
  | .hbm, ⟨115, _⟩ => ⟨S850000x1, .i32⟩
  | .hbm, ⟨116, _⟩ => ⟨S50000x64, .f32⟩
  | .hbm, ⟨117, _⟩ => ⟨S1x32, .f32⟩
  | .hbm, ⟨118, _⟩ => ⟨S50000x32, .f32⟩
  | .hbm, ⟨119, _⟩ => ⟨S1x32, .f32⟩
  | .hbm, ⟨120, _⟩ => ⟨S1x32, .f32⟩
  | .hbm, ⟨121, _⟩ => ⟨S1x16, .f32⟩
  | .hbm, ⟨122, _⟩ => ⟨S1x2, .f32⟩
  | .hbm, ⟨123, _⟩ => ⟨S50000x32, .f32⟩
  | .hbm, ⟨124, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x32, .f32⟩
  | .local _ .vmem, ⟨14, _⟩ => ⟨S64x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | .local _ .vmem, ⟨18, _⟩ => ⟨S1000x32, .f32⟩
  | .local _ .vmem, ⟨19, _⟩ => ⟨S1000x32, .f32⟩
  | .local _ .vmem, ⟨20, _⟩ => ⟨S32x32, .f32⟩
  | .local _ .vmem, ⟨21, _⟩ => ⟨S1x32, .f32⟩
  | .local _ .vmem, ⟨22, _⟩ => ⟨S32x32, .f32⟩
  | .local _ .vmem, ⟨23, _⟩ => ⟨S1x32, .f32⟩
  | .local _ .vmem, ⟨24, _⟩ => ⟨S32x16, .f32⟩
  | .local _ .vmem, ⟨25, _⟩ => ⟨S1x16, .f32⟩
  | .local _ .vmem, ⟨26, _⟩ => ⟨S16x2, .f32⟩
  | .local _ .vmem, ⟨27, _⟩ => ⟨S1x2, .f32⟩
  | .local _ .vmem, ⟨28, _⟩ => ⟨S1000x32, .f32⟩
  | .local _ .vmem, ⟨29, _⟩ => ⟨S1000x32, .f32⟩
  | .local _ .vmem, ⟨30, _⟩ => ⟨S1000x2, .f32⟩
  | .local _ .vmem, ⟨31, _⟩ => ⟨S1000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_8 : Ref sig .tc := ⟨.hbm, 67, rfl⟩
abbrev main_v41 : Ref sig .tc := ⟨.hbm, 68, rfl⟩
abbrev main_v42 : Ref sig .tc := ⟨.hbm, 69, rfl⟩
abbrev main_c_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_11 : Ref sig .tc := ⟨.hbm, 85, rfl⟩
abbrev main_v56 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_14 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_16 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88_0 : Ref sig .tc := ⟨.hbm, 123, rfl⟩
abbrev main_v88_1 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc2_stg10_0 : Ref sig .tc := ⟨.vmem, 30, rfl⟩
abbrev cc2_stg10_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29
abbrev cc2_sem10_0 : DmaSem sig := 30
abbrev cc2_sem10_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S16x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x2 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1000x32 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1000x2 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S32_S1x32 : S32.ShapeCasts S1x32
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  shapeCasts_S16_S1x16 : S16.ShapeCasts S1x16
  shapeCasts_S2_S1x2 : S2.ShapeCasts S1x2
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  inb_S32x32_S32x32_0_0 : ∀ a, (![0, 0] : Fin 2 → Nat) a + S32x32.size a ≤ S32x32.size a
  h_S32x32 : 0 < S32x32.numel
  broadcasts_S1x32_S1000x32 : S1x32.Broadcasts S1000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1000x16 : S1x16.Broadcasts S1000x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  dot_S1000x32_S32x32_S1000x32_1_0_0_1_n_n_wf : DotDims.WF S1000x32 S32x32 S1000x32 [1] [0] [0] [1] [] []
  dot_S1000x32_S32x16_S1000x16_1_0_0_1_n_n_wf : DotDims.WF S1000x32 S32x16 S1000x16 [1] [0] [0] [1] [] []
  dot_S1000x16_S16x2_S1000x2_1_0_0_1_n_n_wf : DotDims.WF S1000x16 S16x2 S1000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S50000x32.size a
  hwx1_5 : ∀ i : grid1.Coords, EltTy.bits .f32 = 32 ∨ (Rect.block (s := S50000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x32.size a ≤ S50000x32.size a
  hwx2_0 : ∀ i : grid2.Coords, EltTy.bits .f32 = 32 ∨ (Rect.block (s := S50000x32) S1000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x16.size a ≤ S32x16.size a
  hwx2_5 : ∀ i : grid2.Coords, EltTy.bits .f32 = 32 ∨ (Rect.block (s := S32x16) S32x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x16.size a ≤ S1x16.size a
  hwx2_6 : ∀ i : grid2.Coords, EltTy.bits .f32 = 32 ∨ (Rect.block (s := S1x16) S1x16.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S16x2.size a ≤ S16x2.size a
  hwx2_7 : ∀ i : grid2.Coords, EltTy.bits .f32 = 32 ∨ (Rect.block (s := S16x2) S16x2.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x2.size a ≤ S1x2.size a
  hwx2_8 : ∀ i : grid2.Coords, EltTy.bits .f32 = 32 ∨ (Rect.block (s := S1x2) S1x2.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1000x32.size a ≤ S50000x32.size a
  hwx2_9 : ∀ i : grid2.Coords, EltTy.bits .f32 = 32 ∨ (Rect.block (s := S50000x32) S1000x32.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1000x2.size a ≤ S50000x2.size a
  hwx2_10 : ∀ i : grid2.Coords, EltTy.bits .f32 = 32 ∨ (Rect.block (s := S50000x2) S1000x2.size (cc2_transform_10 i) (hinb2_10 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S1000x32_S32x32_S1000x32_1_0_0_1_n_n : DotDims S1000x32 S32x32 S1000x32 where
  lhsContracting := [1]
  rhsContracting := [0]
  lhsNonContracting := [0]
  rhsNonContracting := [1]
  lhsBatch := []
  rhsBatch := []
  wf := dot_S1000x32_S32x32_S1000x32_1_0_0_1_n_n_wf
def dot_S1000x32_S32x16_S1000x16_1_0_0_1_n_n : DotDims S1000x32 S32x16 S1000x16 where
  lhsContracting := [1]
  rhsContracting := [0]
  lhsNonContracting := [0]
  rhsNonContracting := [1]
  lhsBatch := []
  rhsBatch := []
  wf := dot_S1000x32_S32x16_S1000x16_1_0_0_1_n_n_wf
def dot_S1000x16_S16x2_S1000x2_1_0_0_1_n_n : DotDims S1000x16 S16x2 S1000x2 where
  lhsContracting := [1]
  rhsContracting := [0]
  lhsNonContracting := [0]
  rhsNonContracting := [1]
  lhsBatch := []
  rhsBatch := []
  wf := dot_S1000x16_S16x2_S1000x2_1_0_0_1_n_n_wf

abbrev win0_0 : Pipeline.Window sig grid0 :=
  Pipeline.Window.ofSpec (Memref.whole main_v40) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v54) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v55) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v68) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v81) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v82) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v83) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v83) S1000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v84) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v85) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S32x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v86) S1x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S16x2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v87) S1x2.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v88_0) S1000x32.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v88_1) S1000x2.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x128 : Shape := ⟨2, ![850000, 128]⟩
abbrev S1x64 : Shape := ⟨2, ![1, 64]⟩
abbrev S50000x32 : Shape := ⟨2, ![50000, 32]⟩
abbrev S850000x64 : Shape := ⟨2, ![850000, 64]⟩
abbrev S1x32 : Shape := ⟨2, ![1, 32]⟩
abbrev S50000x16 : Shape := ⟨2, ![50000, 16]⟩
abbrev S1x16 : Shape := ⟨2, ![1, 16]⟩
abbrev S50000x2 : Shape := ⟨2, ![50000, 2]⟩
abbrev S1x2 : Shape := ⟨2, ![1, 2]⟩

abbrev nBuf : Space → Nat
  | .hbm => 161
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S128x64, .f32⟩
  | 4 => ⟨S64, .f32⟩
  | 5 => ⟨S64x32, .f32⟩
  | 6 => ⟨S64x32, .f32⟩
  | 7 => ⟨S32, .f32⟩
  | 8 => ⟨S32x32, .f32⟩
  | 9 => ⟨S32, .f32⟩
  | 10 => ⟨S32x32, .f32⟩
  | 11 => ⟨S32, .f32⟩
  | 12 => ⟨S32x16, .f32⟩
  | 13 => ⟨S16, .f32⟩
  | 14 => ⟨S16x2, .f32⟩
  | 15 => ⟨S2, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .f32⟩
  | 52 => ⟨S50000x64, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S50000x64, .f32⟩
  | 70 => ⟨S50000x64, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000x128, .f32⟩
  | 80 => ⟨S850000x1, .f32⟩
  | 81 => ⟨S850000x128, .f32⟩
  | 82 => ⟨S850000x128, .f32⟩
  | 83 => ⟨S_, .f32⟩
  | 84 => ⟨S50000x128, .f32⟩
  | 85 => ⟨S850000x1, .i32⟩
  | 86 => ⟨S50000x128, .f32⟩
  | 87 => ⟨S50000x64, .f32⟩
  | 88 => ⟨S50000x64, .f32⟩
  | 89 => ⟨S1x64, .f32⟩
  | 90 => ⟨S50000x64, .f32⟩
  | 91 => ⟨S50000x64, .f32⟩
  | 92 => ⟨S_, .f32⟩
  | 93 => ⟨S50000x64, .f32⟩
  | 94 => ⟨S50000x64, .f32⟩
  | 95 => ⟨S_, .f32⟩
  | 96 => ⟨S50000x32, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x64, .f32⟩
  | 106 => ⟨S850000x1, .f32⟩
  | 107 => ⟨S850000x64, .f32⟩
  | 108 => ⟨S850000x64, .f32⟩
  | 109 => ⟨S_, .f32⟩
  | 110 => ⟨S50000x64, .f32⟩
  | 111 => ⟨S850000x1, .i32⟩
  | 112 => ⟨S50000x64, .f32⟩
  | 113 => ⟨S50000x32, .f32⟩
  | 114 => ⟨S50000x32, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x64, .f32⟩
  | 124 => ⟨S850000x1, .f32⟩
  | 125 => ⟨S850000x64, .f32⟩
  | 126 => ⟨S850000x64, .f32⟩
  | 127 => ⟨S_, .f32⟩
  | _ => ⟨S50000x128, .f32⟩

abbrev hbmTy0_1 (i : Nat) : BufTy := match i % 128 with
  | 0 => ⟨S50000x64, .f32⟩
  | 1 => ⟨S850000x1, .i32⟩
  | 2 => ⟨S50000x64, .f32⟩
  | 3 => ⟨S50000x32, .f32⟩
  | 4 => ⟨S50000x32, .f32⟩
  | 5 => ⟨S1x32, .f32⟩
  | 6 => ⟨S50000x32, .f32⟩
  | 7 => ⟨S50000x32, .f32⟩
  | 8 => ⟨S_, .f32⟩
  | 9 => ⟨S50000x32, .f32⟩
  | 10 => ⟨S50000x32, .f32⟩
  | 11 => ⟨S50000x32, .f32⟩
  | 12 => ⟨S1x32, .f32⟩
  | 13 => ⟨S50000x32, .f32⟩
  | 14 => ⟨S50000x32, .f32⟩
  | 15 => ⟨S_, .f32⟩
  | 16 => ⟨S50000x32, .f32⟩
  | 17 => ⟨S50000x32, .f32⟩
  | 18 => ⟨S50000x32, .f32⟩
  | 19 => ⟨S1x32, .f32⟩
  | 20 => ⟨S50000x32, .f32⟩
  | 21 => ⟨S50000x32, .f32⟩
  | 22 => ⟨S50000x16, .f32⟩
  | 23 => ⟨S1x16, .f32⟩
  | 24 => ⟨S50000x16, .f32⟩
  | 25 => ⟨S50000x16, .f32⟩
  | 26 => ⟨S_, .f32⟩
  | 27 => ⟨S50000x16, .f32⟩
  | 28 => ⟨S50000x16, .f32⟩
  | 29 => ⟨S50000x2, .f32⟩
  | 30 => ⟨S1x2, .f32⟩
  | 31 => ⟨S50000x2, .f32⟩
  | 32 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_c_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call0_cst : Ref sig .tc := ⟨.hbm, 92, rfl⟩
abbrev main_call0_v0 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_c_13 : Ref sig .tc := ⟨.hbm, 97, rfl⟩
abbrev main_v64 : Ref sig .tc := ⟨.hbm, 98, rfl⟩
abbrev main_v65 : Ref sig .tc := ⟨.hbm, 99, rfl⟩
abbrev main_c_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_16 : Ref sig .tc := ⟨.hbm, 115, rfl⟩
abbrev main_v79 : Ref sig .tc := ⟨.hbm, 116, rfl⟩
abbrev main_v80 : Ref sig .tc := ⟨.hbm, 117, rfl⟩
abbrev main_c_17 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_18 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_call1_cst : Ref sig .tc := ⟨.hbm, 136, rfl⟩
abbrev main_call1_v0 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_call2_cst : Ref sig .tc := ⟨.hbm, 143, rfl⟩
abbrev main_call2_v0 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_call3_cst : Ref sig .tc := ⟨.hbm, 154, rfl⟩
abbrev main_call3_v0 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S50000x64 : S_.BroadcastsInDim S50000x64 (![] : Fin 0 → Fin S50000x64.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x32 : S_.BroadcastsInDim S50000x32 (![] : Fin 0 → Fin S50000x32.rank)
  bcast_S850000x1_S850000x64_0_1 : S850000x1.BroadcastsInDim S850000x64 (![0, 1] : Fin 2 → Fin S850000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  dot_S50000x32_S32x32_S50000x32_1_0_0_1_n_n_wf : DotDims.WF S50000x32 S32x32 S50000x32 [1] [0] [0] [1] [] []
  dot_S50000x32_S32x16_S50000x16_1_0_0_1_n_n_wf : DotDims.WF S50000x32 S32x16 S50000x16 [1] [0] [0] [1] [] []
  dot_S50000x16_S16x2_S50000x2_1_0_0_1_n_n_wf : DotDims.WF S50000x16 S16x2 S50000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf
def dot_S50000x16_S16x2_S50000x2_1_0_0_1_n_n : DotDims S50000x16 S16x2 S50000x2 where
  lhsContracting := [1]
  rhsContracting := [0]
  lhsNonContracting := [0]
  rhsNonContracting := [1]
  lhsBatch := []
  rhsBatch := []
  wf := dot_S50000x16_S16x2_S50000x2_1_0_0_1_n_n_wf

class Facts : Prop extends Facts₀ where

variable [Facts]
-- ==== Proof.KernelRun.lean ====
/-
  The idealized kernel program's run, with its results named.

  The program is three kernel launches among stretches of host operations. Its frame proof carries, from segment to
  segment, the contents of every buffer that is not a kernel's private scratch: the launch memory, then a stretch's
  operations applied to it, then a launch's arrays at what its blocks' write-backs leave, and so on; `Gen.W6` is the
  last of these boundary contents. Here the same launch theorem is read with a stronger conclusion than "the arguments
  are unchanged": every weakly fair execution terminates, without a fault, in a state whose every such buffer holds
  exactly `Gen.W6` — in particular the two result buffers, whose contents the later modules compute.
-/
import proofs.«100889_j45827301048543_2_alg».proof.Proof.Gen.KernelIdeal.Frame

set_option maxRecDepth 16384

noncomputable section

namespace Cert.KernelIdeal.Outputs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in its final state every buffer outside
    the kernels' scratch holds the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The run with the two results named: the coordinate head's array and the projection head's array end at the last
    boundary's contents of their buffers, and every argument array ends as launched. -/
theorem run : θ_run defs (onTc (τ := τ) (main (F := F))) ⟨m, fun _ => 0, ρ⟩ (fun r => ∀ c : Dev nD,
      r.2.mem ((c.tc : Thread nD τ).loc main_v88_1) = W6 m ρ c (Proc.devRef .tc main_v88_1)
      ∧ r.2.mem ((c.tc : Thread nD τ).loc main_v88_0) = W6 m ρ c (Proc.devRef .tc main_v88_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun s h c =>
    ⟨h c _ (mem_uc main_v88_1 (by decide)),
     h c _ (mem_uc main_v88_0 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c)⟩)
    (run_boundary m ρ)

end Cert.KernelIdeal.Outputs

end
-- ==== Proof.LibRowOfVector.lean ====
/-
  A bias vector as an array of one row, two ways.

  A vector of length `a` can be made an array of shape `[1, a]` by a reshape (row-major positions are kept) or by a
  broadcast that sends the vector's axis to the array's second axis. Both arrays have entry `(0, q)` equal to entry `q`
  of the vector, so they are the same array. A tiled kernel usually receives its bias in the first form, a whole-array
  reference usually builds the second.
-/
import Idealize.ShloMosaic.Lib.ValueLayout
import Idealize.ShloMosaic.Lib.ValueIdx
import Idealize.ShloMosaic.Lib.Pipeline.Value

noncomputable section

namespace Cert.LibRowOfVector

open Idealize.ShloMosaic Idealize.ShloMosaic.ValueIdx

/-- A vector reshaped to an array of one row is the vector broadcast along that row: entry `(0, q)` of either is
    entry `q` of the vector. Holds for any element type and any length (for length one the broadcast reads index
    `0`, which is the only index). -/
theorem row_of_vector {α : Type} {a : ℕ} (x : (⟨1, ![a]⟩ : Shape).Idx → α) (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext i
  obtain ⟨u, q, rfl⟩ : ∃ (u : Fin 1) (q : Fin a), i = ix2 u q := ⟨i 0, i 1, eq_ix2 i⟩
  rw [shapeCast_a_1a_apply]
  refine (broadcastInDim_apply _ hb x (ix2 u q) (ix1 q) (fun d => ?_)).symm
  match d with
  | ⟨0, _⟩ =>
    show q.val = if a = 1 then 0 else q.val
    split
    · have := q.isLt; omega
    · rfl

end Cert.LibRowOfVector

end
-- ==== Proof.HostReads.lean ====
/-
  The idealized kernel program's host operations, read against the reference's stages.

  Between its three kernel launches the kernel program runs, on the host, the same graph operations as the reference:
  the edge list with the self loops appended, the degree of every node by a scatter-add of ones, the symmetric
  normalisation `deg^(-1/2)[src] · deg^(-1/2)[dst]`, and the propagation `h ↦ scatter_add (h[src] · norm)`, applied
  twice per layer. None of this is opened: each array the kernel program holds when a launch is entered is shown to be
  the reference's stage for the same quantity applied to the same argument arrays — the two programs' operation chains
  are the same chain —, so a gather or a scatter-add is never read at an index. The argument arrays themselves are
  written by no host operation and no launch, so every boundary still holds them as launched.

  A bias vector enters a launch reshaped to an array of one row, where the reference broadcasts it to one row: the same
  array (`row_of_vector`).
-/
import proofs.«100889_j45827301048543_2_alg».proof.Proof.Gen.KernelIdeal.Frame
import proofs.«100889_j45827301048543_2_alg».proof.Proof.Gen.ReferenceIdeal.Read
import proofs.«100889_j45827301048543_2_alg».proof.Proof.LibRowOfVector
import Idealize.ShloMosaic.Lib.ValueLayout
import Idealize.ShloMosaic.Lib.ValueIdx
import Idealize.ShloMosaic.Lib.Pipeline.Value

set_option maxRecDepth 16384

noncomputable section

namespace Cert.KernelIdeal.HostReads

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Read
open Cert.LibRowOfVector

variable (m : (ℓ : Loc nD τ sig) → Buf (Elt Ideal) ℓ) (ρ : Dev nD → PrngReg)

/-! ## Before the first launch -/

/-- The source nodes of the edges, self loops appended. -/
theorem first_src (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl

/-- The destination nodes of the edges, self loops appended. -/
theorem first_dst (c : Dev nD) : W1 m ρ c (Proc.devRef .tc main_v6) = val_main_v6 (F := Ideal) (m ((c : Thread nD τ).loc main_arg1)) := by
  show StableHlo.after hostOps0 (W0 m ρ c) (Proc.devRef .tc main_v6) = _
  after_results_simp
  rfl

set_option maxHeartbeats 8000000 in
/-- The edges' normalisation weights `deg^(-1/2)[src] · deg^(-1/2)[dst]`. -/
theorem first_norm (c : Dev nD) : W1 m ρ c (Proc.devRef .tc main_v27) = val_main_v27 (F := Ideal) (m ((c : Thread nD τ).loc main_arg1)) := by
  show StableHlo.after hostOps0 (W0 m ρ c) (Proc.devRef .tc main_v27) = _
  after_results_simp
  rfl

set_option maxHeartbeats 16000000 in
/-- The features propagated once. -/
theorem first_prop1 (c : Dev nD) : W1 m ρ c (Proc.devRef .tc main_v40) = val_main_v41 (F := Ideal) (m ((c : Thread nD τ).loc main_arg0)) (m ((c : Thread nD τ).loc main_arg1)) := by
  show StableHlo.after hostOps0 (W0 m ρ c) (Proc.devRef .tc main_v40) = _
  after_results_simp
  rfl

set_option maxHeartbeats 32000000 in
/-- The features propagated twice. -/
theorem first_prop2 (c : Dev nD) : W1 m ρ c (Proc.devRef .tc main_v53) = val_main_v56 (F := Ideal) (m ((c : Thread nD τ).loc main_arg0)) (m ((c : Thread nD τ).loc main_arg1)) := by
  show StableHlo.after hostOps0 (W0 m ρ c) (Proc.devRef .tc main_v53) = _
  after_results_simp
  rfl

/-- The first layer's bias as one row. -/
theorem first_bias (c : Dev nD) : W1 m ρ c (Proc.devRef .tc main_v54) = val_main_v59 (F := Ideal) (m ((c : Thread nD τ).loc main_arg4)) := by
  show StableHlo.after hostOps0 (W0 m ρ c) (Proc.devRef .tc main_v54) = _
  after_results_simp
  exact row_of_vector _ _ _

theorem first_arg2 (c : Dev nD) : W1 m ρ c (Proc.devRef .tc main_arg2) = m ((c : Thread nD τ).loc main_arg2) := by
  show StableHlo.after hostOps0 (W0 m ρ c) (Proc.devRef .tc main_arg2) = _
  after_results_simp

theorem first_arg3 (c : Dev nD) : W1 m ρ c (Proc.devRef .tc main_arg3) = m ((c : Thread nD τ).loc main_arg3) := by
  show StableHlo.after hostOps0 (W0 m ρ c) (Proc.devRef .tc main_arg3) = _
  after_results_simp

theorem first_arg5 (c : Dev nD) : W1 m ρ c (Proc.devRef .tc main_arg5) = m ((c : Thread nD τ).loc main_arg5) := by
  show StableHlo.after hostOps0 (W0 m ρ c) (Proc.devRef .tc main_arg5) = _
  after_results_simp

theorem first_arg6 (c : Dev nD) : W1 m ρ c (Proc.devRef .tc main_arg6) = m ((c : Thread nD τ).loc main_arg6) := by
  show StableHlo.after hostOps0 (W0 m ρ c) (Proc.devRef .tc main_arg6) = _
  after_results_simp

theorem first_arg7 (c : Dev nD) : W1 m ρ c (Proc.devRef .tc main_arg7) = m ((c : Thread nD τ).loc main_arg7) := by
  show StableHlo.after hostOps0 (W0 m ρ c) (Proc.devRef .tc main_arg7) = _
  after_results_simp

theorem first_arg8 (c : Dev nD) : W1 m ρ c (Proc.devRef .tc main_arg8) = m ((c : Thread nD τ).loc main_arg8) := by
  show StableHlo.after hostOps0 (W0 m ρ c) (Proc.devRef .tc main_arg8) = _
  after_results_simp

theorem first_arg9 (c : Dev nD) : W1 m ρ c (Proc.devRef .tc main_arg9) = m ((c : Thread nD τ).loc main_arg9) := by
  show StableHlo.after hostOps0 (W0 m ρ c) (Proc.devRef .tc main_arg9) = _
  after_results_simp

theorem first_arg10 (c : Dev nD) : W1 m ρ c (Proc.devRef .tc main_arg10) = m ((c : Thread nD τ).loc main_arg10) := by
  show StableHlo.after hostOps0 (W0 m ρ c) (Proc.devRef .tc main_arg10) = _
  after_results_simp

theorem first_arg11 (c : Dev nD) : W1 m ρ c (Proc.devRef .tc main_arg11) = m ((c : Thread nD τ).loc main_arg11) := by
  show StableHlo.after hostOps0 (W0 m ρ c) (Proc.devRef .tc main_arg11) = _
  after_results_simp

theorem first_arg12 (c : Dev nD) : W1 m ρ c (Proc.devRef .tc main_arg12) = m ((c : Thread nD τ).loc main_arg12) := by
  show StableHlo.after hostOps0 (W0 m ρ c) (Proc.devRef .tc main_arg12) = _
  after_results_simp

theorem first_arg13 (c : Dev nD) : W1 m ρ c (Proc.devRef .tc main_arg13) = m ((c : Thread nD τ).loc main_arg13) := by
  show StableHlo.after hostOps0 (W0 m ρ c) (Proc.devRef .tc main_arg13) = _
  after_results_simp

theorem first_arg14 (c : Dev nD) : W1 m ρ c (Proc.devRef .tc main_arg14) = m ((c : Thread nD τ).loc main_arg14) := by
  show StableHlo.after hostOps0 (W0 m ρ c) (Proc.devRef .tc main_arg14) = _
  after_results_simp

theorem first_arg15 (c : Dev nD) : W1 m ρ c (Proc.devRef .tc main_arg15) = m ((c : Thread nD τ).loc main_arg15) := by
  show StableHlo.after hostOps0 (W0 m ρ c) (Proc.devRef .tc main_arg15) = _
  after_results_simp

/-! ## After the first launch: the edge arrays and the arguments are untouched -/

theorem mid_src (c : Dev nD) : W2 m ρ c (Proc.devRef .tc main_v3) = val_main_v3 (F := Ideal) (m ((c : Thread nD τ).loc main_arg1)) :=
  (W2_of_ne m ρ c main_v3 (by decide)).trans (first_src m ρ c)

theorem mid_dst (c : Dev nD) : W2 m ρ c (Proc.devRef .tc main_v6) = val_main_v6 (F := Ideal) (m ((c : Thread nD τ).loc main_arg1)) :=
  (W2_of_ne m ρ c main_v6 (by decide)).trans (first_dst m ρ c)

theorem mid_norm (c : Dev nD) : W2 m ρ c (Proc.devRef .tc main_v27) = val_main_v27 (F := Ideal) (m ((c : Thread nD τ).loc main_arg1)) :=
  (W2_of_ne m ρ c main_v27 (by decide)).trans (first_norm m ρ c)

theorem mid_arg5 (c : Dev nD) : W2 m ρ c (Proc.devRef .tc main_arg5) = m ((c : Thread nD τ).loc main_arg5) :=
  (W2_of_ne m ρ c main_arg5 (by decide)).trans (first_arg5 m ρ c)

theorem mid_arg6 (c : Dev nD) : W2 m ρ c (Proc.devRef .tc main_arg6) = m ((c : Thread nD τ).loc main_arg6) :=
  (W2_of_ne m ρ c main_arg6 (by decide)).trans (first_arg6 m ρ c)

theorem mid_arg7 (c : Dev nD) : W2 m ρ c (Proc.devRef .tc main_arg7) = m ((c : Thread nD τ).loc main_arg7) :=
  (W2_of_ne m ρ c main_arg7 (by decide)).trans (first_arg7 m ρ c)

theorem mid_arg8 (c : Dev nD) : W2 m ρ c (Proc.devRef .tc main_arg8) = m ((c : Thread nD τ).loc main_arg8) :=
  (W2_of_ne m ρ c main_arg8 (by decide)).trans (first_arg8 m ρ c)

theorem mid_arg9 (c : Dev nD) : W2 m ρ c (Proc.devRef .tc main_arg9) = m ((c : Thread nD τ).loc main_arg9) :=
  (W2_of_ne m ρ c main_arg9 (by decide)).trans (first_arg9 m ρ c)

theorem mid_arg10 (c : Dev nD) : W2 m ρ c (Proc.devRef .tc main_arg10) = m ((c : Thread nD τ).loc main_arg10) :=
  (W2_of_ne m ρ c main_arg10 (by decide)).trans (first_arg10 m ρ c)

theorem mid_arg11 (c : Dev nD) : W2 m ρ c (Proc.devRef .tc main_arg11) = m ((c : Thread nD τ).loc main_arg11) :=
  (W2_of_ne m ρ c main_arg11 (by decide)).trans (first_arg11 m ρ c)

theorem mid_arg12 (c : Dev nD) : W2 m ρ c (Proc.devRef .tc main_arg12) = m ((c : Thread nD τ).loc main_arg12) :=
  (W2_of_ne m ρ c main_arg12 (by decide)).trans (first_arg12 m ρ c)

theorem mid_arg13 (c : Dev nD) : W2 m ρ c (Proc.devRef .tc main_arg13) = m ((c : Thread nD τ).loc main_arg13) :=
  (W2_of_ne m ρ c main_arg13 (by decide)).trans (first_arg13 m ρ c)

theorem mid_arg14 (c : Dev nD) : W2 m ρ c (Proc.devRef .tc main_arg14) = m ((c : Thread nD τ).loc main_arg14) :=
  (W2_of_ne m ρ c main_arg14 (by decide)).trans (first_arg14 m ρ c)

theorem mid_arg15 (c : Dev nD) : W2 m ρ c (Proc.devRef .tc main_arg15) = m ((c : Thread nD τ).loc main_arg15) :=
  (W2_of_ne m ρ c main_arg15 (by decide)).trans (first_arg15 m ρ c)

/-! ## Before the second launch: the first hidden layer propagated once and twice -/

set_option maxHeartbeats 16000000 in
/-- Whatever array the first launch leaves, the host propagates it as the reference propagates its first hidden layer:
    if that array is the reference's first hidden layer, the second launch's first input is the reference's
    `A h₁`. -/
theorem second_prop1 (c : Dev nD)
    (h : W2 m ρ c (Proc.devRef .tc main_v55) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :
    W3 m ρ c (Proc.devRef .tc main_v68) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v68) = _
  after_results_simp
  rw [h, mid_src m ρ c, mid_dst m ρ c, mid_norm m ρ c]
  rfl

set_option maxHeartbeats 32000000 in
/-- And its second input is the reference's `A² h₁`. -/
theorem second_prop2 (c : Dev nD)
    (h : W2 m ρ c (Proc.devRef .tc main_v55) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :
    W3 m ρ c (Proc.devRef .tc main_v81) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v81) = _
  after_results_simp
  rw [h, mid_src m ρ c, mid_dst m ρ c, mid_norm m ρ c]
  rfl

/-- The second layer's bias as one row. -/
theorem second_bias (c : Dev nD) : W3 m ρ c (Proc.devRef .tc main_v82) = val_main_v94 (F := Ideal) (m ((c : Thread nD τ).loc main_arg7)) := by
  show StableHlo.after hostOps1 (W2 m ρ c) (Proc.devRef .tc main_v82) = _
  after_results_simp
  rw [mid_arg7 m ρ c]
  exact row_of_vector _ _ _

theorem second_arg5 (c : Dev nD) : W3 m ρ c (Proc.devRef .tc main_arg5) = m ((c : Thread nD τ).loc main_arg5) := by
  show StableHlo.after hostOps1 (W2 m ρ c) (Proc.devRef .tc main_arg5) = _
  after_results_simp
  exact mid_arg5 m ρ c

theorem second_arg6 (c : Dev nD) : W3 m ρ c (Proc.devRef .tc main_arg6) = m ((c : Thread nD τ).loc main_arg6) := by
  show StableHlo.after hostOps1 (W2 m ρ c) (Proc.devRef .tc main_arg6) = _
  after_results_simp
  exact mid_arg6 m ρ c

theorem second_arg8 (c : Dev nD) : W3 m ρ c (Proc.devRef .tc main_arg8) = m ((c : Thread nD τ).loc main_arg8) := by
  show StableHlo.after hostOps1 (W2 m ρ c) (Proc.devRef .tc main_arg8) = _
  after_results_simp
  exact mid_arg8 m ρ c

theorem second_arg9 (c : Dev nD) : W3 m ρ c (Proc.devRef .tc main_arg9) = m ((c : Thread nD τ).loc main_arg9) := by
  show StableHlo.after hostOps1 (W2 m ρ c) (Proc.devRef .tc main_arg9) = _
  after_results_simp
  exact mid_arg9 m ρ c

theorem second_arg10 (c : Dev nD) : W3 m ρ c (Proc.devRef .tc main_arg10) = m ((c : Thread nD τ).loc main_arg10) := by
  show StableHlo.after hostOps1 (W2 m ρ c) (Proc.devRef .tc main_arg10) = _
  after_results_simp
  exact mid_arg10 m ρ c

theorem second_arg11 (c : Dev nD) : W3 m ρ c (Proc.devRef .tc main_arg11) = m ((c : Thread nD τ).loc main_arg11) := by
  show StableHlo.after hostOps1 (W2 m ρ c) (Proc.devRef .tc main_arg11) = _
  after_results_simp
  exact mid_arg11 m ρ c

theorem second_arg12 (c : Dev nD) : W3 m ρ c (Proc.devRef .tc main_arg12) = m ((c : Thread nD τ).loc main_arg12) := by
  show StableHlo.after hostOps1 (W2 m ρ c) (Proc.devRef .tc main_arg12) = _
  after_results_simp
  exact mid_arg12 m ρ c

theorem second_arg13 (c : Dev nD) : W3 m ρ c (Proc.devRef .tc main_arg13) = m ((c : Thread nD τ).loc main_arg13) := by
  show StableHlo.after hostOps1 (W2 m ρ c) (Proc.devRef .tc main_arg13) = _
  after_results_simp
  exact mid_arg13 m ρ c

theorem second_arg14 (c : Dev nD) : W3 m ρ c (Proc.devRef .tc main_arg14) = m ((c : Thread nD τ).loc main_arg14) := by
  show StableHlo.after hostOps1 (W2 m ρ c) (Proc.devRef .tc main_arg14) = _
  after_results_simp
  exact mid_arg14 m ρ c

theorem second_arg15 (c : Dev nD) : W3 m ρ c (Proc.devRef .tc main_arg15) = m ((c : Thread nD τ).loc main_arg15) := by
  show StableHlo.after hostOps1 (W2 m ρ c) (Proc.devRef .tc main_arg15) = _
  after_results_simp
  exact mid_arg15 m ρ c

/-! ## After the second launch, and the four reshapes before the third -/

theorem late_arg8 (c : Dev nD) : W4 m ρ c (Proc.devRef .tc main_arg8) = m ((c : Thread nD τ).loc main_arg8) :=
  (W4_of_ne m ρ c main_arg8 (by decide)).trans (second_arg8 m ρ c)

theorem late_arg9 (c : Dev nD) : W4 m ρ c (Proc.devRef .tc main_arg9) = m ((c : Thread nD τ).loc main_arg9) :=
  (W4_of_ne m ρ c main_arg9 (by decide)).trans (second_arg9 m ρ c)

theorem late_arg10 (c : Dev nD) : W4 m ρ c (Proc.devRef .tc main_arg10) = m ((c : Thread nD τ).loc main_arg10) :=
  (W4_of_ne m ρ c main_arg10 (by decide)).trans (second_arg10 m ρ c)

theorem late_arg11 (c : Dev nD) : W4 m ρ c (Proc.devRef .tc main_arg11) = m ((c : Thread nD τ).loc main_arg11) :=
  (W4_of_ne m ρ c main_arg11 (by decide)).trans (second_arg11 m ρ c)

theorem late_arg12 (c : Dev nD) : W4 m ρ c (Proc.devRef .tc main_arg12) = m ((c : Thread nD τ).loc main_arg12) :=
  (W4_of_ne m ρ c main_arg12 (by decide)).trans (second_arg12 m ρ c)

theorem late_arg13 (c : Dev nD) : W4 m ρ c (Proc.devRef .tc main_arg13) = m ((c : Thread nD τ).loc main_arg13) :=
  (W4_of_ne m ρ c main_arg13 (by decide)).trans (second_arg13 m ρ c)

theorem late_arg14 (c : Dev nD) : W4 m ρ c (Proc.devRef .tc main_arg14) = m ((c : Thread nD τ).loc main_arg14) :=
  (W4_of_ne m ρ c main_arg14 (by decide)).trans (second_arg14 m ρ c)

theorem late_arg15 (c : Dev nD) : W4 m ρ c (Proc.devRef .tc main_arg15) = m ((c : Thread nD τ).loc main_arg15) :=
  (W4_of_ne m ρ c main_arg15 (by decide)).trans (second_arg15 m ρ c)

/-- The reshapes leave the second launch's output where it is. -/
theorem third_hidden (c : Dev nD) : W5 m ρ c (Proc.devRef .tc main_v83) = W4 m ρ c (Proc.devRef .tc main_v83) := by
  show StableHlo.after hostOps2 (W4 m ρ c) (Proc.devRef .tc main_v83) = _
  after_results_simp

/-- The projection head's first bias as one row. -/
theorem third_bias_v84 (c : Dev nD) : W5 m ρ c (Proc.devRef .tc main_v84) = val_main_v99 (F := Ideal) (m ((c : Thread nD τ).loc main_arg9)) := by
  show StableHlo.after hostOps2 (W4 m ρ c) (Proc.devRef .tc main_v84) = _
  after_results_simp
  rw [late_arg9 m ρ c]
  exact row_of_vector _ _ _

/-- The projection head's second bias as one row. -/
theorem third_bias_v85 (c : Dev nD) : W5 m ρ c (Proc.devRef .tc main_v85) = val_main_v104 (F := Ideal) (m ((c : Thread nD τ).loc main_arg11)) := by
  show StableHlo.after hostOps2 (W4 m ρ c) (Proc.devRef .tc main_v85) = _
  after_results_simp
  rw [late_arg11 m ρ c]
  exact row_of_vector _ _ _

/-- The coordinate head's first bias as one row. -/
theorem third_bias_v86 (c : Dev nD) : W5 m ρ c (Proc.devRef .tc main_v86) = val_main_v108 (F := Ideal) (m ((c : Thread nD τ).loc main_arg13)) := by
  show StableHlo.after hostOps2 (W4 m ρ c) (Proc.devRef .tc main_v86) = _
  after_results_simp
  rw [late_arg13 m ρ c]
  exact row_of_vector _ _ _

/-- The coordinate head's second bias as one row. -/
theorem third_bias_v87 (c : Dev nD) : W5 m ρ c (Proc.devRef .tc main_v87) = val_main_v113 (F := Ideal) (m ((c : Thread nD τ).loc main_arg15)) := by
  show StableHlo.after hostOps2 (W4 m ρ c) (Proc.devRef .tc main_v87) = _
  after_results_simp
  rw [late_arg15 m ρ c]
  exact row_of_vector _ _ _

theorem third_arg8 (c : Dev nD) : W5 m ρ c (Proc.devRef .tc main_arg8) = m ((c : Thread nD τ).loc main_arg8) := by
  show StableHlo.after hostOps2 (W4 m ρ c) (Proc.devRef .tc main_arg8) = _
  after_results_simp
  exact late_arg8 m ρ c

theorem third_arg10 (c : Dev nD) : W5 m ρ c (Proc.devRef .tc main_arg10) = m ((c : Thread nD τ).loc main_arg10) := by
  show StableHlo.after hostOps2 (W4 m ρ c) (Proc.devRef .tc main_arg10) = _
  after_results_simp
  exact late_arg10 m ρ c

theorem third_arg12 (c : Dev nD) : W5 m ρ c (Proc.devRef .tc main_arg12) = m ((c : Thread nD τ).loc main_arg12) := by
  show StableHlo.after hostOps2 (W4 m ρ c) (Proc.devRef .tc main_arg12) = _
  after_results_simp
  exact late_arg12 m ρ c

theorem third_arg14 (c : Dev nD) : W5 m ρ c (Proc.devRef .tc main_arg14) = m ((c : Thread nD τ).loc main_arg14) := by
  show StableHlo.after hostOps2 (W4 m ρ c) (Proc.devRef .tc main_arg14) = _
  after_results_simp
  exact late_arg14 m ρ c

end Cert.KernelIdeal.HostReads

end
-- ==== Proof.Spec.lean ====
/-
  The mathematics both programs compute after message passing, as whole-array functions over the extended reals.

  `combine A B W₁ W₂ b` is one higher-order graph-convolution layer once its two propagated feature arrays are known:
  row `p`, column `q` of the result is `max ((A·W₁)(p,q) + (B·W₂)(p,q) + b(q)) 0` — two matrix products (plain
  finite sums over the contracted axis), the bias of the column, the rectifier. Row `p` of the result depends on row `p`
  of `A` and of `B` only, which is why computing it one block of rows at a time gives the same array.

  `mlp x W₁ b₁ W₂ b₂` is a two-layer perceptron head applied to every row: `relu (x·W₁ + b₁)·W₂ + b₂`, again row by
  row.

  The bias is taken as an array with one row (`[1, o]`): both programs hold it in that shape when they add it.
-/
import Idealize.ShloMosaic.PureOps.Ideal
import Idealize.ShloMosaic.Lib.ValueIdx

noncomputable section

namespace Cert.Spec

open Idealize.ShloMosaic Idealize.ShloMosaic.ValueIdx

/-- Entry `(p, q)` of `relu (A·W₁ + B·W₂ + b)`. -/
def combine {n k o : Nat} (A B : (⟨2, ![n, k]⟩ : Shape).Idx → EReal) (W₁ W₂ : (⟨2, ![k, o]⟩ : Shape).Idx → EReal)
    (b : (⟨2, ![1, o]⟩ : Shape).Idx → EReal) : (⟨2, ![n, o]⟩ : Shape).Idx → EReal :=
  fun i => max (((∑ j : Fin k, A (ix2 (i 0) j) * W₁ (ix2 j (i 1))) + ∑ j : Fin k, B (ix2 (i 0) j) * W₂ (ix2 j (i 1)))
    + b (ix2 0 (i 1))) 0

/-- Entry `(p, q)` of `relu (x·W₁ + b₁)·W₂ + b₂`: the hidden row `relu (x·W₁ + b₁)(p, ·)` contracted with column `q` of `W₂`. -/
def mlp {n k h o : Nat} (x : (⟨2, ![n, k]⟩ : Shape).Idx → EReal) (W₁ : (⟨2, ![k, h]⟩ : Shape).Idx → EReal)
    (b₁ : (⟨2, ![1, h]⟩ : Shape).Idx → EReal) (W₂ : (⟨2, ![h, o]⟩ : Shape).Idx → EReal)
    (b₂ : (⟨2, ![1, o]⟩ : Shape).Idx → EReal) : (⟨2, ![n, o]⟩ : Shape).Idx → EReal :=
  fun i => (∑ j : Fin h, max ((∑ l : Fin k, x (ix2 (i 0) l) * W₁ (ix2 l j)) + b₁ (ix2 0 j)) 0 * W₂ (ix2 j (i 1)))
    + b₂ (ix2 0 (i 1))

theorem combine_apply {n k o : Nat} (A B : (⟨2, ![n, k]⟩ : Shape).Idx → EReal) (W₁ W₂ : (⟨2, ![k, o]⟩ : Shape).Idx → EReal)
    (b : (⟨2, ![1, o]⟩ : Shape).Idx → EReal) (p : Fin n) (q : Fin o) :
    combine A B W₁ W₂ b (ix2 p q) = max (((∑ j : Fin k, A (ix2 p j) * W₁ (ix2 j q)) + ∑ j : Fin k, B (ix2 p j) * W₂ (ix2 j q))
      + b (ix2 0 q)) 0 := rfl

theorem mlp_apply {n k h o : Nat} (x : (⟨2, ![n, k]⟩ : Shape).Idx → EReal) (W₁ : (⟨2, ![k, h]⟩ : Shape).Idx → EReal)
    (b₁ : (⟨2, ![1, h]⟩ : Shape).Idx → EReal) (W₂ : (⟨2, ![h, o]⟩ : Shape).Idx → EReal)
    (b₂ : (⟨2, ![1, o]⟩ : Shape).Idx → EReal) (p : Fin n) (q : Fin o) :
    mlp x W₁ b₁ W₂ b₂ (ix2 p q) = (∑ j : Fin h, max ((∑ l : Fin k, x (ix2 p l) * W₁ (ix2 l j)) + b₁ (ix2 0 j)) 0 * W₂ (ix2 j q))
      + b₂ (ix2 0 q) := rfl

end Cert.Spec

end
-- ==== Proof.CombineBlocksA.lean ====
/-
  The first "combine" launch, from blocks to the whole array.

  The launch walks ten grid points. At point t it stages rows 5000·t … 5000·t + 4999 of the two propagated feature
  arrays, the two whole weight matrices and the one-row bias, and writes back rows 5000·t … 5000·t + 4999 of the
  result. What the body stores is, entry by entry, max ((A·W₁)(p,q) + (B·W₂)(p,q) + b(q)) 0 of the staged blocks:
  over the extended reals the narrowing of the operands is the identity and a product accumulated into zero is the
  plain finite sum over the contracted axis. Row p of the result needs row p of A and of B only, so the ten
  written blocks are the ten row blocks of one whole-array function, and together they cover every row.
-/
import proofs.«100889_j45827301048543_2_alg».proof.Proof.Gen.KernelIdeal.Frame
import proofs.«100889_j45827301048543_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.CombineA

open Cert.KernelIdeal Cert.KernelIdeal.Gen Idealize.ShloMosaic Idealize.ShloMosaic.TcCoe Idealize.SL.Sem
open Idealize.ShloMosaic.ValueIdx
open Idealize.ShloMosaic.Pipeline (Dat)

/-! ## One entry of what the body stores -/

/-- The left operand's index of the product at output entry `i` and contraction coordinate `k`: row of `i`. -/
theorem lhs_row (i : S5000x64.Idx) (k : dot_S5000x128_S128x64_S5000x64_1_0_0_1_n_n.contr.Idx) :
    (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and the contraction coordinate as its column. -/
theorem lhs_col (i : S5000x64.Idx) (k : dot_S5000x128_S128x64_S5000x64_1_0_0_1_n_n.contr.Idx) :
    (dot_S5000x128_S128x64_S5000x64_1_0_0_1_n_n.lhsIdx i k 1).val = (k ⟨0, by decide⟩).val :=
  dot_S5000x128_S128x64_S5000x64_1_0_0_1_n_n.lhsIdx_val_of_single rfl i k
/-- The right operand's index: the contraction coordinate as its row, -/
theorem rhs_row (i : S5000x64.Idx) (k : dot_S5000x128_S128x64_S5000x64_1_0_0_1_n_n.contr.Idx) :
    (dot_S5000x128_S128x64_S5000x64_1_0_0_1_n_n.rhsIdx i k 0).val = (k ⟨0, by decide⟩).val :=
  dot_S5000x128_S128x64_S5000x64_1_0_0_1_n_n.rhsIdx_val_of_single rfl i k
/-- … and the column of `i`. -/
theorem rhs_col (i : S5000x64.Idx) (k : dot_S5000x128_S128x64_S5000x64_1_0_0_1_n_n.contr.Idx) :
    (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block of rows times a weight matrix, accumulated into zero: entry `(p, q)` is the finite sum over the
    contracted axis of the products `x (p, j) · w (j, q)`. -/
theorem rows_times_weights {φ₁ φ₂ : FTy} (x : FVec Ideal S5000x128 φ₁) (w : FVec Ideal S128x64 φ₂) (p : Fin 5000) (q : Fin 64) :
    FloatOps.matmul dot_S5000x128_S128x64_S5000x64_1_0_0_1_n_n none x w (constant (F := Ideal) S5000x64 .f32 0x00000000#32) (ix2 p q)
      = ∑ j : Fin 128, x (ix2 p j) * w (ix2 j q) := by
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_row _ _).trans hk
    | ⟨1, _⟩ => exact rhs_col _ _)
  rw [el, er]

/-- THE BODY'S ARITHMETIC AT AN ENTRY: the two products of the staged row blocks with the weight matrices, added, the
    bias of the column added, and the rectifier. -/
theorem stored_entry (x0 x1 : Vec Ideal S5000x128 .f32) (x2 x3 : Vec Ideal S128x64 .f32) (x4 : Vec Ideal S1x64 .f32)
    (p : Fin 5000) (q : Fin 64) :
    k0_pay1 x0 x1 x2 x3 x4 (ix2 p q)
      = max (((∑ j : Fin 128, x0 (ix2 p j) * x2 (ix2 j q)) + ∑ j : Fin 128, x1 (ix2 p j) * x3 (ix2 j q)) + x4 (ix2 0 q)) 0 := by
  unfold k0_pay1
  simp only [shapeCast_self]
  rw [maximumf_apply, addf_apply, addf_apply, broadcast_apply]
  simp only [matmul]
  rw [rows_times_weights, rows_times_weights, broadcastTo_1b_ab_apply]
  simp only [truncf_apply]
  rw [show (Scalar.ofBits .f32 0x00000000#32 : Ideal .f32) = 0 from Ideal.ofBits_zero_f32]

/-! ## Which block each window stages at a grid point -/

theorem zeros : (![0, 0] : Fin 2 → Nat) = fun _ => 0 := funext fun a => by fin_cases a <;> rfl

/-- Decided over the ten points: the two feature windows and the result window sit at block `(t, 0)`, the two weight
    windows and the bias window at block `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## One written block is a block of rows of the whole-array function -/

/-- For any arrays and staged blocks: if the staged feature blocks are rows `s … s + 4999` of `A` and `B`, and the staged weights
    and bias are `W₁`, `W₂`, `b` themselves, then the stored entry at `y` is the whole-array function at the entry
    `s` rows further down, same column. -/
theorem stored_is_rows_of_combine (A B : S50000x128.Idx → EReal) (W₁ W₂ : S128x64.Idx → EReal) (b : S1x64.Idx → EReal)
    (x0 x1 : Vec Ideal S5000x128 .f32) (x2 x3 : Vec Ideal S128x64 .f32) (x4 : Vec Ideal S1x64 .f32)
    (s : Nat) (hs : s + 5000 ≤ 50000)
    (h0 : ∀ (p : Fin 5000) (j : Fin 128), x0 (ix2 p j) = A (ix2 (⟨s + p.val, by have := p.isLt; omega⟩ : Fin 50000) j))
    (h1 : ∀ (p : Fin 5000) (j : Fin 128), x1 (ix2 p j) = B (ix2 (⟨s + p.val, by have := p.isLt; omega⟩ : Fin 50000) j))
    (h2 : x2 = W₁) (h3 : x3 = W₂) (h4 : x4 = b)
    (y : S5000x64.Idx) (i : S50000x64.Idx) (hi0 : (i 0).val = s + (y 0).val) (hi1 : (i 1).val = (y 1).val) :
    k0_pay1 x0 x1 x2 x3 x4 y = Cert.Spec.combine (n := 50000) (k := 128) (o := 64) A B W₁ W₂ b i := by
  obtain ⟨p, q, rfl⟩ : ∃ (p : Fin 5000) (q : Fin 64), y = ix2 p q := ⟨y 0, y 1, eq_ix2 y⟩
  have hp : s + p.val < 50000 := by have := p.isLt; omega
  have hi : i = ix2 (⟨s + p.val, hp⟩ : Fin 50000) q := by
    rw [eq_ix2 i]
    exact congrArg₂ ix2 (Fin.ext hi0) (Fin.ext hi1)
  subst hi
  subst h2 h3 h4
  rw [stored_entry, Cert.Spec.combine_apply]
  simp only [h0, h1]

/-- The whole-array function of the launch's five input arrays as the launch finds them. -/
abbrev wholeResult (V : (c : Dev nD) → (b : Ref sig .tc) → Buf (Elt Ideal) ((c : Thread nD τ).loc b)) (c : Dev nD) : S50000x64.Idx → EReal :=
  Cert.Spec.combine (n := 50000) (k := 128) (o := 64) (V c main_v40) (V c main_v53) (V c main_arg2) (V c main_arg3) (V c main_v54)

/-- WHAT POINT `t` WRITES BACK is block `t` of the whole-array function: the stored block is one store of the body's
    arithmetic over the five staged blocks; a staged entry sits in its array at block index × block size + its own
    coordinate on each axis, so the feature blocks are rows `5000·t …` and the weights and bias are whole. -/
theorem written_block (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal) (wholeResult V c) := by
  show (cfg0.win 5).cut (grid0.coords t) ((dat0 V c).after 5 t) = _
  rw [after0_5]
  unfold out0_5
  rw [View.canon_unit_zero zeros]
  simp only [View.ld_unit_zero (S := S5000x128) zeros, View.ld_unit_zero (S := S128x64) zeros, View.ld_unit_zero (S := S1x64) zeros]
  obtain ⟨a0, a1, b0, b1, c0, c1, d0, d1, e0, e1, f0, f1⟩ := block_indices t
  have ht : t.val < 10 := by have h := t.isLt; have hN : cfg0.N = 10 := N_0; omega
  funext y
  refine stored_is_rows_of_combine (V c main_v40) (V c main_v53) (V c main_arg2) (V c main_arg3) (V c main_v54)
    (iblk0 V c 0 t) (iblk0 V c 1 t) (iblk0 V c 2 t) (iblk0 V c 3 t) (iblk0 V c 4 t) (t.val * 5000) (by omega)
    ?_ ?_ ?_ ?_ ?_ y (((cfg0.win 5).blk t).view.emb y) ?_ ?_
  · intro p j
    show V c main_v40 (((cfg0.win 0).blk t).view.emb (ix2 p j)) = V c main_v40 _
    refine congrArg (V c main_v40) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * j.val = j.val; omega
  · intro p j
    show V c main_v53 (((cfg0.win 1).blk t).view.emb (ix2 p j)) = V c main_v53 _
    refine congrArg (V c main_v53) (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * j.val = j.val; omega
  · funext z
    show V c main_arg2 (((cfg0.win 2).blk t).view.emb z) = V c main_arg2 z
    refine congrArg (V c main_arg2) (funext fun a => Fin.ext ?_)
    match a with
    | ⟨0, _⟩ => show win0_2.index t (0 : Fin 2) * 128 + 1 * (z 0).val = (z 0).val; omega
    | ⟨1, _⟩ => show win0_2.index t (1 : Fin 2) * 64 + 1 * (z 1).val = (z 1).val; omega
  · funext z
    show V c main_arg3 (((cfg0.win 3).blk t).view.emb z) = V c main_arg3 z
    refine congrArg (V c main_arg3) (funext fun a => Fin.ext ?_)
    match a with
    | ⟨0, _⟩ => show win0_3.index t (0 : Fin 2) * 128 + 1 * (z 0).val = (z 0).val; omega
    | ⟨1, _⟩ => show win0_3.index t (1 : Fin 2) * 64 + 1 * (z 1).val = (z 1).val; omega
  · funext z
    show V c main_v54 (((cfg0.win 4).blk t).view.emb z) = V c main_v54 z
    refine congrArg (V c main_v54) (funext fun a => Fin.ext ?_)
    match a with
    | ⟨0, _⟩ => show win0_4.index t (0 : Fin 2) * 1 + 1 * (z 0).val = (z 0).val; omega
    | ⟨1, _⟩ => show win0_4.index t (1 : Fin 2) * 64 + 1 * (z 1).val = (z 1).val; omega
  · show win0_5.index t (0 : Fin 2) * 5000 + 1 * (y 0).val = t.val * 5000 + (y 0).val; omega
  · show win0_5.index t (1 : Fin 2) * 64 + 1 * (y 1).val = (y 1).val; omega

/-! ## The ten written blocks cover the array -/

/-- An entry of the result array is in point `t`'s block iff each coordinate is in the block's range on its axis. -/
theorem mem_block (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v55).slice (win0_5.rect t)).set ↔ _
  rw [View.set_slice_whole, Rect.mem_set_unit]
  exact Iff.rfl

/-- Row `r` of the result is written by point `r / 5000`. -/
theorem covered (i : S50000x64.Idx) : ∃ t : Fin cfg0.N, (cfg0.win 5).flush t = true ∧ i ∈ ((cfg0.win 5).blk t).view.set := by
  have hi0 : (i 0).val < 50000 := idx2_lt0 i
  have hi1 : (i 1).val < 64 := idx2_lt1 i
  have hN : cfg0.N = 10 := N_0
  refine ⟨⟨(i 0).val / 5000, by rw [hN]; omega⟩, flush0_5 _, ?_⟩
  rw [mem_block]
  obtain ⟨-, -, -, -, -, -, -, -, -, -, f0, f1⟩ := block_indices ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [f0]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [f1]; omega

/-! ## The array after the launch -/

/-- After the ten points the result array holds the whole-array function of the five input arrays. -/
theorem final (V : (c : Dev nD) → (b : Ref sig .tc) → Buf (Elt Ideal) ((c : Thread nD τ).loc b)) (c : Dev nD) :
    (dat0 (F := Ideal) V c).arrAt 5 cfg0.N
      = Cert.Spec.combine (n := 50000) (k := 128) (o := 64) (V c main_v40) (V c main_v53) (V c main_arg2) (V c main_arg3) (V c main_v54) :=
  (dat0 (F := Ideal) V c).arrAt_eq_of_cover 5 (wholeResult V c) (fun t _ => written_block V c t) covered

end Cert.KernelIdeal.CombineA

end
-- ==== Proof.CombineBlocksB.lean ====
/-
  The second "combine" launch, from blocks to the whole array.

  The launch walks ten grid points. At point t it stages rows 5000·t … 5000·t + 4999 of the two propagated feature
  arrays, the two whole weight matrices and the one-row bias, and writes back rows 5000·t … 5000·t + 4999 of the
  result. What the body stores is, entry by entry, max ((A·W₁)(p,q) + (B·W₂)(p,q) + b(q)) 0 of the staged blocks:
  over the extended reals the narrowing of the operands is the identity and a product accumulated into zero is the
  plain finite sum over the contracted axis. Row p of the result needs row p of A and of B only, so the ten
  written blocks are the ten row blocks of one whole-array function, and together they cover every row.
-/
import proofs.«100889_j45827301048543_2_alg».proof.Proof.Gen.KernelIdeal.Frame
import proofs.«100889_j45827301048543_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.CombineB

open Cert.KernelIdeal Cert.KernelIdeal.Gen Idealize.ShloMosaic Idealize.ShloMosaic.TcCoe Idealize.SL.Sem
open Idealize.ShloMosaic.ValueIdx
open Idealize.ShloMosaic.Pipeline (Dat)

/-! ## One entry of what the body stores -/

/-- The left operand's index of the product at output entry `i` and contraction coordinate `k`: row of `i`. -/
theorem lhs_row (i : S5000x32.Idx) (k : dot_S5000x64_S64x32_S5000x32_1_0_0_1_n_n.contr.Idx) :
    (dot_S5000x64_S64x32_S5000x32_1_0_0_1_n_n.lhsIdx i k 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
/-- … and the contraction coordinate as its column. -/
theorem lhs_col (i : S5000x32.Idx) (k : dot_S5000x64_S64x32_S5000x32_1_0_0_1_n_n.contr.Idx) :
    (dot_S5000x64_S64x32_S5000x32_1_0_0_1_n_n.lhsIdx i k 1).val = (k ⟨0, by decide⟩).val :=
  dot_S5000x64_S64x32_S5000x32_1_0_0_1_n_n.lhsIdx_val_of_single rfl i k
/-- The right operand's index: the contraction coordinate as its row, -/
theorem rhs_row (i : S5000x32.Idx) (k : dot_S5000x64_S64x32_S5000x32_1_0_0_1_n_n.contr.Idx) :
    (dot_S5000x64_S64x32_S5000x32_1_0_0_1_n_n.rhsIdx i k 0).val = (k ⟨0, by decide⟩).val :=
  dot_S5000x64_S64x32_S5000x32_1_0_0_1_n_n.rhsIdx_val_of_single rfl i k
/-- … and the column of `i`. -/
theorem rhs_col (i : S5000x32.Idx) (k : dot_S5000x64_S64x32_S5000x32_1_0_0_1_n_n.contr.Idx) :
    (dot_S5000x64_S64x32_S5000x32_1_0_0_1_n_n.rhsIdx i k 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- A block of rows times a weight matrix, accumulated into zero: entry `(p, q)` is the finite sum over the
    contracted axis of the products `x (p, j) · w (j, q)`. -/
theorem rows_times_weights {φ₁ φ₂ : FTy} (x : FVec Ideal S5000x64 φ₁) (w : FVec Ideal S64x32 φ₂) (p : Fin 5000) (q : Fin 32) :
    FloatOps.matmul dot_S5000x64_S64x32_S5000x32_1_0_0_1_n_n none x w (constant (F := Ideal) S5000x32 .f32 0x00000000#32) (ix2 p q)
      = ∑ j : Fin 64, x (ix2 p j) * w (ix2 j q) := by
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p q) ((ValueIdx.contrEquiv1 dot_S5000x64_S64x32_S5000x32_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x32_S5000x32_1_0_0_1_n_n.rhsIdx (ix2 p q) ((ValueIdx.contrEquiv1 dot_S5000x64_S64x32_S5000x32_1_0_0_1_n_n 64 rfl rfl).symm k) = ix2 k q := funext fun a => Fin.ext (by
    match a with
    | ⟨0, _⟩ => exact (rhs_row _ _).trans hk
    | ⟨1, _⟩ => exact rhs_col _ _)
  rw [el, er]

/-- THE BODY'S ARITHMETIC AT AN ENTRY: the two products of the staged row blocks with the weight matrices, added, the
    bias of the column added, and the rectifier. -/
theorem stored_entry (x0 x1 : Vec Ideal S5000x64 .f32) (x2 x3 : Vec Ideal S64x32 .f32) (x4 : Vec Ideal S1x32 .f32)
    (p : Fin 5000) (q : Fin 32) :
    k1_pay1 x0 x1 x2 x3 x4 (ix2 p q)
      = max (((∑ j : Fin 64, x0 (ix2 p j) * x2 (ix2 j q)) + ∑ j : Fin 64, x1 (ix2 p j) * x3 (ix2 j q)) + x4 (ix2 0 q)) 0 := by
  unfold k1_pay1
  simp only [shapeCast_self]
  rw [maximumf_apply, addf_apply, addf_apply, broadcast_apply]
  simp only [matmul]
  rw [rows_times_weights, rows_times_weights, broadcastTo_1b_ab_apply]
  simp only [truncf_apply]
  rw [show (Scalar.ofBits .f32 0x00000000#32 : Ideal .f32) = 0 from Ideal.ofBits_zero_f32]

/-! ## Which block each window stages at a grid point -/

theorem zeros : (![0, 0] : Fin 2 → Nat) = fun _ => 0 := funext fun a => by fin_cases a <;> rfl

/-- Decided over the ten points: the two feature windows and the result window sit at block `(t, 0)`, the two weight
    windows and the bias window at block `(0, 0)`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## One written block is a block of rows of the whole-array function -/

/-- For any arrays and staged blocks: if the staged feature blocks are rows `s … s + 4999` of `A` and `B`, and the staged weights
    and bias are `W₁`, `W₂`, `b` themselves, then the stored entry at `y` is the whole-array function at the entry
    `s` rows further down, same column. -/
theorem stored_is_rows_of_combine (A B : S50000x64.Idx → EReal) (W₁ W₂ : S64x32.Idx → EReal) (b : S1x32.Idx → EReal)
    (x0 x1 : Vec Ideal S5000x64 .f32) (x2 x3 : Vec Ideal S64x32 .f32) (x4 : Vec Ideal S1x32 .f32)
    (s : Nat) (hs : s + 5000 ≤ 50000)
    (h0 : ∀ (p : Fin 5000) (j : Fin 64), x0 (ix2 p j) = A (ix2 (⟨s + p.val, by have := p.isLt; omega⟩ : Fin 50000) j))
    (h1 : ∀ (p : Fin 5000) (j : Fin 64), x1 (ix2 p j) = B (ix2 (⟨s + p.val, by have := p.isLt; omega⟩ : Fin 50000) j))
    (h2 : x2 = W₁) (h3 : x3 = W₂) (h4 : x4 = b)
    (y : S5000x32.Idx) (i : S50000x32.Idx) (hi0 : (i 0).val = s + (y 0).val) (hi1 : (i 1).val = (y 1).val) :
    k1_pay1 x0 x1 x2 x3 x4 y = Cert.Spec.combine (n := 50000) (k := 64) (o := 32) A B W₁ W₂ b i := by
  obtain ⟨p, q, rfl⟩ : ∃ (p : Fin 5000) (q : Fin 32), y = ix2 p q := ⟨y 0, y 1, eq_ix2 y⟩
  have hp : s + p.val < 50000 := by have := p.isLt; omega
  have hi : i = ix2 (⟨s + p.val, hp⟩ : Fin 50000) q := by
    rw [eq_ix2 i]
    exact congrArg₂ ix2 (Fin.ext hi0) (Fin.ext hi1)
  subst hi
  subst h2 h3 h4
  rw [stored_entry, Cert.Spec.combine_apply]
  simp only [h0, h1]

/-- The whole-array function of the launch's five input arrays as the launch finds them. -/
abbrev wholeResult (V : (c : Dev nD) → (b : Ref sig .tc) → Buf (Elt Ideal) ((c : Thread nD τ).loc b)) (c : Dev nD) : S50000x32.Idx → EReal :=
  Cert.Spec.combine (n := 50000) (k := 64) (o := 32) (V c main_v68) (V c main_v81) (V c main_arg5) (V c main_arg6) (V c main_v82)

/-- WHAT POINT `t` WRITES BACK is block `t` of the whole-array function: the stored block is one store of the body's
    arithmetic over the five staged blocks; a staged entry sits in its array at block index × block size + its own
    coordinate on each axis, so the feature blocks are rows `5000·t …` and the weights and bias are whole. -/
theorem written_block (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal) (wholeResult V c) := by
  show (cfg1.win 5).cut (grid1.coords t) ((dat1 V c).after 5 t) = _
  rw [after1_5]
  unfold out1_5
  rw [View.canon_unit_zero zeros]
  simp only [View.ld_unit_zero (S := S5000x64) zeros, View.ld_unit_zero (S := S64x32) zeros, View.ld_unit_zero (S := S1x32) zeros]
  obtain ⟨a0, a1, b0, b1, c0, c1, d0, d1, e0, e1, f0, f1⟩ := block_indices t
  have ht : t.val < 10 := by have h := t.isLt; have hN : cfg1.N = 10 := N_1; omega
  funext y
  refine stored_is_rows_of_combine (V c main_v68) (V c main_v81) (V c main_arg5) (V c main_arg6) (V c main_v82)
    (iblk1 V c 0 t) (iblk1 V c 1 t) (iblk1 V c 2 t) (iblk1 V c 3 t) (iblk1 V c 4 t) (t.val * 5000) (by omega)
    ?_ ?_ ?_ ?_ ?_ y (((cfg1.win 5).blk t).view.emb y) ?_ ?_
  · intro p j
    show V c main_v68 (((cfg1.win 0).blk t).view.emb (ix2 p j)) = V c main_v68 _
    refine congrArg (V c main_v68) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * j.val = j.val; omega
  · intro p j
    show V c main_v81 (((cfg1.win 1).blk t).view.emb (ix2 p j)) = V c main_v81 _
    refine congrArg (V c main_v81) (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * j.val = j.val; omega
  · funext z
    show V c main_arg5 (((cfg1.win 2).blk t).view.emb z) = V c main_arg5 z
    refine congrArg (V c main_arg5) (funext fun a => Fin.ext ?_)
    match a with
    | ⟨0, _⟩ => show win1_2.index t (0 : Fin 2) * 64 + 1 * (z 0).val = (z 0).val; omega
    | ⟨1, _⟩ => show win1_2.index t (1 : Fin 2) * 32 + 1 * (z 1).val = (z 1).val; omega
  · funext z
    show V c main_arg6 (((cfg1.win 3).blk t).view.emb z) = V c main_arg6 z
    refine congrArg (V c main_arg6) (funext fun a => Fin.ext ?_)
    match a with
    | ⟨0, _⟩ => show win1_3.index t (0 : Fin 2) * 64 + 1 * (z 0).val = (z 0).val; omega
    | ⟨1, _⟩ => show win1_3.index t (1 : Fin 2) * 32 + 1 * (z 1).val = (z 1).val; omega
  · funext z
    show V c main_v82 (((cfg1.win 4).blk t).view.emb z) = V c main_v82 z
    refine congrArg (V c main_v82) (funext fun a => Fin.ext ?_)
    match a with
    | ⟨0, _⟩ => show win1_4.index t (0 : Fin 2) * 1 + 1 * (z 0).val = (z 0).val; omega
    | ⟨1, _⟩ => show win1_4.index t (1 : Fin 2) * 32 + 1 * (z 1).val = (z 1).val; omega
  · show win1_5.index t (0 : Fin 2) * 5000 + 1 * (y 0).val = t.val * 5000 + (y 0).val; omega
  · show win1_5.index t (1 : Fin 2) * 32 + 1 * (y 1).val = (y 1).val; omega

/-! ## The ten written blocks cover the array -/

/-- An entry of the result array is in point `t`'s block iff each coordinate is in the block's range on its axis. -/
theorem mem_block (t : Fin cfg1.N) (i : S50000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v83).slice (win1_5.rect t)).set ↔ _
  rw [View.set_slice_whole, Rect.mem_set_unit]
  exact Iff.rfl

/-- Row `r` of the result is written by point `r / 5000`. -/
theorem covered (i : S50000x32.Idx) : ∃ t : Fin cfg1.N, (cfg1.win 5).flush t = true ∧ i ∈ ((cfg1.win 5).blk t).view.set := by
  have hi0 : (i 0).val < 50000 := idx2_lt0 i
  have hi1 : (i 1).val < 32 := idx2_lt1 i
  have hN : cfg1.N = 10 := N_1
  refine ⟨⟨(i 0).val / 5000, by rw [hN]; omega⟩, flush1_5 _, ?_⟩
  rw [mem_block]
  obtain ⟨-, -, -, -, -, -, -, -, -, -, f0, f1⟩ := block_indices ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [f0]; show (i 0).val / 5000 * 5000 ≤ (i 0).val ∧ (i 0).val < (i 0).val / 5000 * 5000 + 5000; omega
  | ⟨1, _⟩ =>
    show win1_5.index _ (1 : Fin 2) * 32 ≤ (i 1).val ∧ (i 1).val < win1_5.index _ (1 : Fin 2) * 32 + 32
    rw [f1]; omega

/-! ## The array after the launch -/

/-- After the ten points the result array holds the whole-array function of the five input arrays. -/
theorem final (V : (c : Dev nD) → (b : Ref sig .tc) → Buf (Elt Ideal) ((c : Thread nD τ).loc b)) (c : Dev nD) :
    (dat1 (F := Ideal) V c).arrAt 5 cfg1.N
      = Cert.Spec.combine (n := 50000) (k := 64) (o := 32) (V c main_v68) (V c main_v81) (V c main_arg5) (V c main_arg6) (V c main_v82) :=
  (dat1 (F := Ideal) V c).arrAt_eq_of_cover 5 (wholeResult V c) (fun t _ => written_block V c t) covered

end Cert.KernelIdeal.CombineB

end
-- ==== Proof.HeadsBlocks.lean ====
/-
  The third launch (the two perceptron heads), from blocks to whole arrays, over the extended reals.

  Each of the fifty grid points reads a block of 1000 rows of the feature array together with the whole weight and bias
  arrays of both heads, and writes a block of 1000 rows to each of the two outputs. Entry `(p, q)` of what it writes is
  `∑ j, max (∑ l, x(p,l)·W₁(l,j) + b₁(j)) 0 · W₂(j,q) + b₂(q)`: narrowing to bf16 is the identity on extended reals, a
  product into the zero accumulator is the plain finite sum, and a one-row bias spread over the rows reads its own column.
  That entry depends on row `p` of the block only, and row `p` of block `t` is row `t·1000 + p` of the array; so
  every point writes its block of ONE whole-array function (`Cert.Spec.mlp`), row `r` is covered by point `r / 1000`,
  and the output arrays after the launch are that function of the arrays the launch found.
-/
import proofs.«100889_j45827301048543_2_alg».proof.Proof.Gen.KernelIdeal.Frame
import proofs.«100889_j45827301048543_2_alg».proof.Proof.Spec
import Idealize.ShloMosaic.Lib.Pipeline.Value
import Idealize.ShloMosaic.Lib.ValueIdx
import Idealize.ShloMosaic.PureOps.Ideal.Laws

noncomputable section

namespace Cert.KernelIdeal.Heads

open Cert.KernelIdeal Cert.KernelIdeal.Gen Idealize.ShloMosaic Idealize.ShloMosaic.TcCoe Idealize.SL.Sem
open Idealize.ShloMosaic.ValueIdx
open Idealize.ShloMosaic.Pipeline (Dat)

theorem lhs0_a (i : S1000x32.Idx) (r : dot_S1000x32_S32x32_S1000x32_1_0_0_1_n_n.contr.Idx) : (dot_S1000x32_S32x32_S1000x32_1_0_0_1_n_n.lhsIdx i r 0).val = (i 0).val := by
  unfold DotDims.lhsIdx
  rw [dif_neg (show ¬(0 : Fin S1000x32.rank) ∈ dot_S1000x32_S32x32_S1000x32_1_0_0_1_n_n.lhsBatch by decide), dif_pos (show (0 : Fin S1000x32.rank) ∈ dot_S1000x32_S32x32_S1000x32_1_0_0_1_n_n.lhsNonContracting by decide)]
  rfl
theorem lhs1_a (i : S1000x32.Idx) (r : dot_S1000x32_S32x32_S1000x32_1_0_0_1_n_n.contr.Idx) : (dot_S1000x32_S32x32_S1000x32_1_0_0_1_n_n.lhsIdx i r 1).val = (r ⟨0, by decide⟩).val :=
  dot_S1000x32_S32x32_S1000x32_1_0_0_1_n_n.lhsIdx_val_of_single rfl i r
theorem rhs0_a (i : S1000x32.Idx) (r : dot_S1000x32_S32x32_S1000x32_1_0_0_1_n_n.contr.Idx) : (dot_S1000x32_S32x32_S1000x32_1_0_0_1_n_n.rhsIdx i r 0).val = (r ⟨0, by decide⟩).val :=
  dot_S1000x32_S32x32_S1000x32_1_0_0_1_n_n.rhsIdx_val_of_single rfl i r
theorem rhs1_a (i : S1000x32.Idx) (r : dot_S1000x32_S32x32_S1000x32_1_0_0_1_n_n.contr.Idx) : (dot_S1000x32_S32x32_S1000x32_1_0_0_1_n_n.rhsIdx i r 1).val = (i 1).val := by
  unfold DotDims.rhsIdx
  rw [dif_neg (show ¬(1 : Fin S32x32.rank) ∈ dot_S1000x32_S32x32_S1000x32_1_0_0_1_n_n.rhsBatch by decide), dif_pos (show (1 : Fin S32x32.rank) ∈ dot_S1000x32_S32x32_S1000x32_1_0_0_1_n_n.rhsNonContracting by decide)]
  rfl

/-- A [1000,32] block times a [32,32] block into the zero accumulator is, entry by entry, the plain sum over the contracted axis. -/
theorem matmul_a (x : FVec Ideal S1000x32 .bf16) (w : FVec Ideal S32x32 .bf16) (p : Fin 1000) (q : Fin 32) :
    matmul dot_S1000x32_S32x32_S1000x32_1_0_0_1_n_n none x w (constant (F := Ideal) S1000x32 .f32 0x00000000#32) (ix2 p q)
      = ∑ k : Fin 32, x (ix2 p k) * w (ix2 k q) := by
  refine (Ideal.matmul_constant_zero_apply dot_S1000x32_S32x32_S1000x32_1_0_0_1_n_n none x w (ix2 p q)).trans ?_
  rw [← Equiv.sum_comp (ValueIdx.contrEquiv1 dot_S1000x32_S32x32_S1000x32_1_0_0_1_n_n 32 rfl rfl).symm]
  refine Finset.sum_congr rfl fun k _ => ?_
  have hk := ValueIdx.contrEquiv1_symm_val dot_S1000x32_S32x32_S1000x32_1_0_0_1_n_n 32 rfl rfl k
  have el : dot_S1000x32_S32x32_S1000x32_1_0_0_1_n_n.lhsIdx (ix2 p q) ((ValueIdx.contrEquiv1 dot_S1000x32_S32x32_S1000x32_1_0_0_1_n_n 32 rfl rfl).symm k) = ix2 p k := funext fun a => Fin.ext (by
    match a with
    | ⟨0, _⟩ => exact lhs0_a _ _
    | ⟨1, _⟩ => exact (lhs1_a _ _).trans hk)
  have er : dot_S1000x32_S32x32_S1000x32_1_0_0_1_n_n.rhsIdx (ix2 p q) ((ValueIdx.contrEquiv1 dot_S1000x32_S32x32_S1000x32_1_0_0_1_n_n 32 rfl rfl).symm k) = ix2 k q := funext fun a => Fin.ext (by
    match a with
    | ⟨0, _⟩ => exact (rhs0_a _ _).trans hk
    | ⟨1, _⟩ => exact rhs1_a _ _)
  rw [el, er]

theorem lhs0_b (i : S1000x16.Idx) (r : dot_S1000x32_S32x16_S1000x16_1_0_0_1_n_n.contr.Idx) : (dot_S1000x32_S32x16_S1000x16_1_0_0_1_n_n.lhsIdx i r 0).val = (i 0).val := by
  unfold DotDims.lhsIdx
  rw [dif_neg (show ¬(0 : Fin S1000x32.rank) ∈ dot_S1000x32_S32x16_S1000x16_1_0_0_1_n_n.lhsBatch by decide), dif_pos (show (0 : Fin S1000x32.rank) ∈ dot_S1000x32_S32x16_S1000x16_1_0_0_1_n_n.lhsNonContracting by decide)]
  rfl
theorem lhs1_b (i : S1000x16.Idx) (r : dot_S1000x32_S32x16_S1000x16_1_0_0_1_n_n.contr.Idx) : (dot_S1000x32_S32x16_S1000x16_1_0_0_1_n_n.lhsIdx i r 1).val = (r ⟨0, by decide⟩).val :=
  dot_S1000x32_S32x16_S1000x16_1_0_0_1_n_n.lhsIdx_val_of_single rfl i r
theorem rhs0_b (i : S1000x16.Idx) (r : dot_S1000x32_S32x16_S1000x16_1_0_0_1_n_n.contr.Idx) : (dot_S1000x32_S32x16_S1000x16_1_0_0_1_n_n.rhsIdx i r 0).val = (r ⟨0, by decide⟩).val :=
  dot_S1000x32_S32x16_S1000x16_1_0_0_1_n_n.rhsIdx_val_of_single rfl i r
theorem rhs1_b (i : S1000x16.Idx) (r : dot_S1000x32_S32x16_S1000x16_1_0_0_1_n_n.contr.Idx) : (dot_S1000x32_S32x16_S1000x16_1_0_0_1_n_n.rhsIdx i r 1).val = (i 1).val := by
  unfold DotDims.rhsIdx
  rw [dif_neg (show ¬(1 : Fin S32x16.rank) ∈ dot_S1000x32_S32x16_S1000x16_1_0_0_1_n_n.rhsBatch by decide), dif_pos (show (1 : Fin S32x16.rank) ∈ dot_S1000x32_S32x16_S1000x16_1_0_0_1_n_n.rhsNonContracting by decide)]
  rfl

/-- The same for a [1000,32] block times a [32,16] block. -/
theorem matmul_b (x : FVec Ideal S1000x32 .bf16) (w : FVec Ideal S32x16 .bf16) (p : Fin 1000) (q : Fin 16) :
    matmul dot_S1000x32_S32x16_S1000x16_1_0_0_1_n_n none x w (constant (F := Ideal) S1000x16 .f32 0x00000000#32) (ix2 p q)
      = ∑ k : Fin 32, x (ix2 p k) * w (ix2 k q) := by
  refine (Ideal.matmul_constant_zero_apply dot_S1000x32_S32x16_S1000x16_1_0_0_1_n_n none x w (ix2 p q)).trans ?_
  rw [← Equiv.sum_comp (ValueIdx.contrEquiv1 dot_S1000x32_S32x16_S1000x16_1_0_0_1_n_n 32 rfl rfl).symm]
  refine Finset.sum_congr rfl fun k _ => ?_
  have hk := ValueIdx.contrEquiv1_symm_val dot_S1000x32_S32x16_S1000x16_1_0_0_1_n_n 32 rfl rfl k
  have el : dot_S1000x32_S32x16_S1000x16_1_0_0_1_n_n.lhsIdx (ix2 p q) ((ValueIdx.contrEquiv1 dot_S1000x32_S32x16_S1000x16_1_0_0_1_n_n 32 rfl rfl).symm k) = ix2 p k := funext fun a => Fin.ext (by
    match a with
    | ⟨0, _⟩ => exact lhs0_b _ _
    | ⟨1, _⟩ => exact (lhs1_b _ _).trans hk)
  have er : dot_S1000x32_S32x16_S1000x16_1_0_0_1_n_n.rhsIdx (ix2 p q) ((ValueIdx.contrEquiv1 dot_S1000x32_S32x16_S1000x16_1_0_0_1_n_n 32 rfl rfl).symm k) = ix2 k q := funext fun a => Fin.ext (by
    match a with
    | ⟨0, _⟩ => exact (rhs0_b _ _).trans hk
    | ⟨1, _⟩ => exact rhs1_b _ _)
  rw [el, er]

theorem lhs0_c (i : S1000x2.Idx) (r : dot_S1000x16_S16x2_S1000x2_1_0_0_1_n_n.contr.Idx) : (dot_S1000x16_S16x2_S1000x2_1_0_0_1_n_n.lhsIdx i r 0).val = (i 0).val := by
  unfold DotDims.lhsIdx
  rw [dif_neg (show ¬(0 : Fin S1000x16.rank) ∈ dot_S1000x16_S16x2_S1000x2_1_0_0_1_n_n.lhsBatch by decide), dif_pos (show (0 : Fin S1000x16.rank) ∈ dot_S1000x16_S16x2_S1000x2_1_0_0_1_n_n.lhsNonContracting by decide)]
  rfl
theorem lhs1_c (i : S1000x2.Idx) (r : dot_S1000x16_S16x2_S1000x2_1_0_0_1_n_n.contr.Idx) : (dot_S1000x16_S16x2_S1000x2_1_0_0_1_n_n.lhsIdx i r 1).val = (r ⟨0, by decide⟩).val :=
  dot_S1000x16_S16x2_S1000x2_1_0_0_1_n_n.lhsIdx_val_of_single rfl i r
theorem rhs0_c (i : S1000x2.Idx) (r : dot_S1000x16_S16x2_S1000x2_1_0_0_1_n_n.contr.Idx) : (dot_S1000x16_S16x2_S1000x2_1_0_0_1_n_n.rhsIdx i r 0).val = (r ⟨0, by decide⟩).val :=
  dot_S1000x16_S16x2_S1000x2_1_0_0_1_n_n.rhsIdx_val_of_single rfl i r
theorem rhs1_c (i : S1000x2.Idx) (r : dot_S1000x16_S16x2_S1000x2_1_0_0_1_n_n.contr.Idx) : (dot_S1000x16_S16x2_S1000x2_1_0_0_1_n_n.rhsIdx i r 1).val = (i 1).val := by
  unfold DotDims.rhsIdx
  rw [dif_neg (show ¬(1 : Fin S16x2.rank) ∈ dot_S1000x16_S16x2_S1000x2_1_0_0_1_n_n.rhsBatch by decide), dif_pos (show (1 : Fin S16x2.rank) ∈ dot_S1000x16_S16x2_S1000x2_1_0_0_1_n_n.rhsNonContracting by decide)]
  rfl

/-- The same for a [1000,16] block times a [16,2] block. -/
theorem matmul_c (x : FVec Ideal S1000x16 .bf16) (w : FVec Ideal S16x2 .bf16) (p : Fin 1000) (q : Fin 2) :
    matmul dot_S1000x16_S16x2_S1000x2_1_0_0_1_n_n none x w (constant (F := Ideal) S1000x2 .f32 0x00000000#32) (ix2 p q)
      = ∑ k : Fin 16, x (ix2 p k) * w (ix2 k q) := by
  refine (Ideal.matmul_constant_zero_apply dot_S1000x16_S16x2_S1000x2_1_0_0_1_n_n none x w (ix2 p q)).trans ?_
  rw [← Equiv.sum_comp (ValueIdx.contrEquiv1 dot_S1000x16_S16x2_S1000x2_1_0_0_1_n_n 16 rfl rfl).symm]
  refine Finset.sum_congr rfl fun k _ => ?_
  have hk := ValueIdx.contrEquiv1_symm_val dot_S1000x16_S16x2_S1000x2_1_0_0_1_n_n 16 rfl rfl k
  have el : dot_S1000x16_S16x2_S1000x2_1_0_0_1_n_n.lhsIdx (ix2 p q) ((ValueIdx.contrEquiv1 dot_S1000x16_S16x2_S1000x2_1_0_0_1_n_n 16 rfl rfl).symm k) = ix2 p k := funext fun a => Fin.ext (by
    match a with
    | ⟨0, _⟩ => exact lhs0_c _ _
    | ⟨1, _⟩ => exact (lhs1_c _ _).trans hk)
  have er : dot_S1000x16_S16x2_S1000x2_1_0_0_1_n_n.rhsIdx (ix2 p q) ((ValueIdx.contrEquiv1 dot_S1000x16_S16x2_S1000x2_1_0_0_1_n_n 16 rfl rfl).symm k) = ix2 k q := funext fun a => Fin.ext (by
    match a with
    | ⟨0, _⟩ => exact (rhs0_c _ _).trans hk
    | ⟨1, _⟩ => exact rhs1_c _ _)
  rw [el, er]

/-- A one-row array spread over the rows of a block reads, at row `p` and column `q`, its own column `q`. -/
theorem bcast_row {α : Type} {n h : Nat} (x : (⟨2, ![1, h]⟩ : Shape).Idx → α)
    (hb : (⟨2, ![1, h]⟩ : Shape).Broadcasts ⟨2, ![n, h]⟩) (p : Fin n) (q : Fin h) :
    broadcastTo ⟨2, ![n, h]⟩ x hb (ix2 p q) = x (ix2 0 q) :=
  broadcastTo_apply x hb (ix2 p q) (ix2 0 q) fun a => by
    match a with
    | ⟨0, _⟩ => show (0 : Nat) = if (1 : Nat) = 1 then 0 else _; rw [if_pos rfl]
    | ⟨1, _⟩ =>
      show q.val = if h = 1 then 0 else q.val
      split
      · have := q.isLt; omega
      · rfl

/-- The rectifier's zero word is the real number zero. -/
theorem zero_word : (Scalar.ofBits .f32 0x00000000#32 : Ideal .f32) = 0 := Ideal.ofBits_zero_f32

/-- The first head's block, entry by entry: the hidden row `relu (x·W₁ + b₁)(p, ·)` contracted with column `q` of `W₂`,
    plus the bias of the column. Narrowing to bf16 is the identity on extended reals; each product into the zero
    accumulator is the plain finite sum. -/
theorem pay_z (x0 : Vec Ideal S1000x32 .f32) (x1 : Vec Ideal S32x32 .f32) (x2 : Vec Ideal S1x32 .f32)
    (x3 : Vec Ideal S32x32 .f32) (x4 : Vec Ideal S1x32 .f32) (p : Fin 1000) (q : Fin 32) :
    k2_pay3 x0 x1 x2 x3 x4 (ix2 p q)
      = (∑ j : Fin 32, max ((∑ l : Fin 32, x0 (ix2 p l) * x1 (ix2 l j)) + x2 (ix2 0 j)) 0 * x3 (ix2 j q)) + x4 (ix2 0 q) := by
  unfold k2_pay3 k2_pay2
  simp only [shapeCast_self]
  refine congrArg₂ (· + ·) ?_ (bcast_row x4 _ p q)
  refine (matmul_a _ _ p q).trans ?_
  refine Finset.sum_congr rfl fun j _ => ?_
  refine congrArg₂ (· * ·) ?_ rfl
  refine congrArg₂ max ?_ zero_word
  exact congrArg₂ (· + ·) (matmul_a _ _ p j) (bcast_row x2 _ p j)

/-- The second head's block, entry by entry: the same with hidden width 16 and two output columns. -/
theorem pay_c (x0 : Vec Ideal S1000x32 .f32) (x5 : Vec Ideal S32x16 .f32) (x6 : Vec Ideal S1x16 .f32)
    (x7 : Vec Ideal S16x2 .f32) (x8 : Vec Ideal S1x2 .f32) (p : Fin 1000) (q : Fin 2) :
    k2_pay1 (k2_pay4 x0 x5 x6 x7) (k2_pay5 x8) (ix2 p q)
      = (∑ j : Fin 16, max ((∑ l : Fin 32, x0 (ix2 p l) * x5 (ix2 l j)) + x6 (ix2 0 j)) 0 * x7 (ix2 j q)) + x8 (ix2 0 q) := by
  unfold k2_pay1 k2_pay4 k2_pay5 k2_pay2
  simp only [shapeCast_self]
  refine congrArg₂ (· + ·) ?_ (bcast_row x8 _ p q)
  refine (matmul_c _ _ p q).trans ?_
  refine Finset.sum_congr rfl fun j _ => ?_
  refine congrArg₂ (· * ·) ?_ rfl
  refine congrArg₂ max ?_ zero_word
  exact congrArg₂ (· + ·) (matmul_b _ _ p j) (bcast_row x6 _ p j)

variable (V : (c : Dev nD) → (b : Ref sig .tc) → Buf (Elt Ideal) ((c : Thread nD τ).loc b))

theorem hz : (![0, 0] : Fin 2 → Nat) = fun _ => 0 := funext fun a => by fin_cases a <;> rfl

/-- The index maps over the fifty points: the row-block windows sit at block (t, 0), every weight and bias window at
    block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0
    ∧ win2_10.index t (0 : Fin 2) = t.val ∧ win2_10.index t (1 : Fin 2) = 0 :=
  (by decide +kernel : ∀ t : Fin grid2.N, _)

/-- Row `p` of the input block at point `t` is row `t·1000 + p` of the feature array. -/
theorem iblk_0 (c : Dev nD) (t : Fin cfg2.N) (p : Fin 1000) (l : Fin 32) (r : Fin 50000) (hr : r.val = t.val * 1000 + p.val) :
    (iblk2 V c 0 t : Vec Ideal S1000x32 .f32) (ix2 p l) = (V c main_v83 : S50000x32.Idx → EReal) (ix2 r l) := by
  obtain ⟨e0, e1, e2, e3, e4, e5, e6, e7, e8, e9, e10, e11, e12, e13, e14, e15, e16, e17, e18, e19, e20, e21⟩ := idx_facts t
  unfold iblk2
  rw [View.read_apply]
  show V c main_v83 _ = V c main_v83 _
  congr 1
  funext a
  apply Fin.ext
  match a with
  | ⟨0, _⟩ => show win2_0.index t (0 : Fin 2) * 1000 + 1 * p.val = r.val; rw [e0, hr]; omega
  | ⟨1, _⟩ => show win2_0.index t (1 : Fin 2) * 32 + 1 * l.val = l.val; rw [e1]; omega

/-- Window 1's block is its whole array at every point: block (0, 0) of the array's own size. -/
theorem iblk_1 (c : Dev nD) (t : Fin cfg2.N) : (iblk2 V c 1 t : Vec Ideal S32x32 .f32) = (V c main_arg8 : S32x32.Idx → EReal) := by
  obtain ⟨e0, e1, e2, e3, e4, e5, e6, e7, e8, e9, e10, e11, e12, e13, e14, e15, e16, e17, e18, e19, e20, e21⟩ := idx_facts t
  refine funext fun (y : S32x32.Idx) => ?_
  unfold iblk2
  rw [View.read_apply]
  show V c main_arg8 _ = V c main_arg8 _
  congr 1
  funext a
  apply Fin.ext
  match a with
  | ⟨0, _⟩ => show win2_1.index t (0 : Fin 2) * 32 + 1 * (y 0).val = (y 0).val; rw [e2]; omega
  | ⟨1, _⟩ => show win2_1.index t (1 : Fin 2) * 32 + 1 * (y 1).val = (y 1).val; rw [e3]; omega

/-- Window 2's block is its whole array at every point: block (0, 0) of the array's own size. -/
theorem iblk_2 (c : Dev nD) (t : Fin cfg2.N) : (iblk2 V c 2 t : Vec Ideal S1x32 .f32) = (V c main_v84 : S1x32.Idx → EReal) := by
  obtain ⟨e0, e1, e2, e3, e4, e5, e6, e7, e8, e9, e10, e11, e12, e13, e14, e15, e16, e17, e18, e19, e20, e21⟩ := idx_facts t
  refine funext fun (y : S1x32.Idx) => ?_
  unfold iblk2
  rw [View.read_apply]
  show V c main_v84 _ = V c main_v84 _
  congr 1
  funext a
  apply Fin.ext
  match a with
  | ⟨0, _⟩ => show win2_2.index t (0 : Fin 2) * 1 + 1 * (y 0).val = (y 0).val; rw [e4]; omega
  | ⟨1, _⟩ => show win2_2.index t (1 : Fin 2) * 32 + 1 * (y 1).val = (y 1).val; rw [e5]; omega

/-- Window 3's block is its whole array at every point: block (0, 0) of the array's own size. -/
theorem iblk_3 (c : Dev nD) (t : Fin cfg2.N) : (iblk2 V c 3 t : Vec Ideal S32x32 .f32) = (V c main_arg10 : S32x32.Idx → EReal) := by
  obtain ⟨e0, e1, e2, e3, e4, e5, e6, e7, e8, e9, e10, e11, e12, e13, e14, e15, e16, e17, e18, e19, e20, e21⟩ := idx_facts t
  refine funext fun (y : S32x32.Idx) => ?_
  unfold iblk2
  rw [View.read_apply]
  show V c main_arg10 _ = V c main_arg10 _
  congr 1
  funext a
  apply Fin.ext
  match a with
  | ⟨0, _⟩ => show win2_3.index t (0 : Fin 2) * 32 + 1 * (y 0).val = (y 0).val; rw [e6]; omega
  | ⟨1, _⟩ => show win2_3.index t (1 : Fin 2) * 32 + 1 * (y 1).val = (y 1).val; rw [e7]; omega

/-- Window 4's block is its whole array at every point: block (0, 0) of the array's own size. -/
theorem iblk_4 (c : Dev nD) (t : Fin cfg2.N) : (iblk2 V c 4 t : Vec Ideal S1x32 .f32) = (V c main_v85 : S1x32.Idx → EReal) := by
  obtain ⟨e0, e1, e2, e3, e4, e5, e6, e7, e8, e9, e10, e11, e12, e13, e14, e15, e16, e17, e18, e19, e20, e21⟩ := idx_facts t
  refine funext fun (y : S1x32.Idx) => ?_
  unfold iblk2
  rw [View.read_apply]
  show V c main_v85 _ = V c main_v85 _
  congr 1
  funext a
  apply Fin.ext
  match a with
  | ⟨0, _⟩ => show win2_4.index t (0 : Fin 2) * 1 + 1 * (y 0).val = (y 0).val; rw [e8]; omega
  | ⟨1, _⟩ => show win2_4.index t (1 : Fin 2) * 32 + 1 * (y 1).val = (y 1).val; rw [e9]; omega

/-- Window 5's block is its whole array at every point: block (0, 0) of the array's own size. -/
theorem iblk_5 (c : Dev nD) (t : Fin cfg2.N) : (iblk2 V c 5 t : Vec Ideal S32x16 .f32) = (V c main_arg12 : S32x16.Idx → EReal) := by
  obtain ⟨e0, e1, e2, e3, e4, e5, e6, e7, e8, e9, e10, e11, e12, e13, e14, e15, e16, e17, e18, e19, e20, e21⟩ := idx_facts t
  refine funext fun (y : S32x16.Idx) => ?_
  unfold iblk2
  rw [View.read_apply]
  show V c main_arg12 _ = V c main_arg12 _
  congr 1
  funext a
  apply Fin.ext
  match a with
  | ⟨0, _⟩ => show win2_5.index t (0 : Fin 2) * 32 + 1 * (y 0).val = (y 0).val; rw [e10]; omega
  | ⟨1, _⟩ => show win2_5.index t (1 : Fin 2) * 16 + 1 * (y 1).val = (y 1).val; rw [e11]; omega

/-- Window 6's block is its whole array at every point: block (0, 0) of the array's own size. -/
theorem iblk_6 (c : Dev nD) (t : Fin cfg2.N) : (iblk2 V c 6 t : Vec Ideal S1x16 .f32) = (V c main_v86 : S1x16.Idx → EReal) := by
  obtain ⟨e0, e1, e2, e3, e4, e5, e6, e7, e8, e9, e10, e11, e12, e13, e14, e15, e16, e17, e18, e19, e20, e21⟩ := idx_facts t
  refine funext fun (y : S1x16.Idx) => ?_
  unfold iblk2
  rw [View.read_apply]
  show V c main_v86 _ = V c main_v86 _
  congr 1
  funext a
  apply Fin.ext
  match a with
  | ⟨0, _⟩ => show win2_6.index t (0 : Fin 2) * 1 + 1 * (y 0).val = (y 0).val; rw [e12]; omega
  | ⟨1, _⟩ => show win2_6.index t (1 : Fin 2) * 16 + 1 * (y 1).val = (y 1).val; rw [e13]; omega

/-- Window 7's block is its whole array at every point: block (0, 0) of the array's own size. -/
theorem iblk_7 (c : Dev nD) (t : Fin cfg2.N) : (iblk2 V c 7 t : Vec Ideal S16x2 .f32) = (V c main_arg14 : S16x2.Idx → EReal) := by
  obtain ⟨e0, e1, e2, e3, e4, e5, e6, e7, e8, e9, e10, e11, e12, e13, e14, e15, e16, e17, e18, e19, e20, e21⟩ := idx_facts t
  refine funext fun (y : S16x2.Idx) => ?_
  unfold iblk2
  rw [View.read_apply]
  show V c main_arg14 _ = V c main_arg14 _
  congr 1
  funext a
  apply Fin.ext
  match a with
  | ⟨0, _⟩ => show win2_7.index t (0 : Fin 2) * 16 + 1 * (y 0).val = (y 0).val; rw [e14]; omega
  | ⟨1, _⟩ => show win2_7.index t (1 : Fin 2) * 2 + 1 * (y 1).val = (y 1).val; rw [e15]; omega

/-- Window 8's block is its whole array at every point: block (0, 0) of the array's own size. -/
theorem iblk_8 (c : Dev nD) (t : Fin cfg2.N) : (iblk2 V c 8 t : Vec Ideal S1x2 .f32) = (V c main_v87 : S1x2.Idx → EReal) := by
  obtain ⟨e0, e1, e2, e3, e4, e5, e6, e7, e8, e9, e10, e11, e12, e13, e14, e15, e16, e17, e18, e19, e20, e21⟩ := idx_facts t
  refine funext fun (y : S1x2.Idx) => ?_
  unfold iblk2
  rw [View.read_apply]
  show V c main_v87 _ = V c main_v87 _
  congr 1
  funext a
  apply Fin.ext
  match a with
  | ⟨0, _⟩ => show win2_8.index t (0 : Fin 2) * 1 + 1 * (y 0).val = (y 0).val; rw [e16]; omega
  | ⟨1, _⟩ => show win2_8.index t (1 : Fin 2) * 2 + 1 * (y 1).val = (y 1).val; rw [e17]; omega

/-- Over blocks that are rows `r` of the features and the whole weight and bias arrays, the first head's block entry is the
    whole-array function's entry at row `r`. -/
theorem block_z (A0 : (⟨2, ![50000, 32]⟩ : Shape).Idx → EReal) (A1 : (⟨2, ![32, 32]⟩ : Shape).Idx → EReal)
    (A2 : (⟨2, ![1, 32]⟩ : Shape).Idx → EReal) (A3 : (⟨2, ![32, 32]⟩ : Shape).Idx → EReal) (A4 : (⟨2, ![1, 32]⟩ : Shape).Idx → EReal)
    (x0 : Vec Ideal S1000x32 .f32) (x1 : Vec Ideal S32x32 .f32) (x2 : Vec Ideal S1x32 .f32) (x3 : Vec Ideal S32x32 .f32)
    (x4 : Vec Ideal S1x32 .f32) (r : Fin 50000) (p : Fin 1000) (q : Fin 32)
    (h0 : ∀ l : Fin 32, x0 (ix2 p l) = A0 (ix2 r l)) (h1 : x1 = A1) (h2 : x2 = A2) (h3 : x3 = A3) (h4 : x4 = A4) :
    k2_pay3 x0 x1 x2 x3 x4 (ix2 p q) = Cert.Spec.mlp A0 A1 A2 A3 A4 (ix2 r q) := by
  subst h1 h2 h3 h4
  rw [pay_z, Cert.Spec.mlp_apply]
  simp only [h0]

/-- The same for the second head. -/
theorem block_c (A0 : (⟨2, ![50000, 32]⟩ : Shape).Idx → EReal) (A5 : (⟨2, ![32, 16]⟩ : Shape).Idx → EReal)
    (A6 : (⟨2, ![1, 16]⟩ : Shape).Idx → EReal) (A7 : (⟨2, ![16, 2]⟩ : Shape).Idx → EReal) (A8 : (⟨2, ![1, 2]⟩ : Shape).Idx → EReal)
    (x0 : Vec Ideal S1000x32 .f32) (x5 : Vec Ideal S32x16 .f32) (x6 : Vec Ideal S1x16 .f32) (x7 : Vec Ideal S16x2 .f32)
    (x8 : Vec Ideal S1x2 .f32) (r : Fin 50000) (p : Fin 1000) (q : Fin 2)
    (h0 : ∀ l : Fin 32, x0 (ix2 p l) = A0 (ix2 r l)) (h5 : x5 = A5) (h6 : x6 = A6) (h7 : x7 = A7) (h8 : x8 = A8) :
    k2_pay1 (k2_pay4 x0 x5 x6 x7) (k2_pay5 x8) (ix2 p q) = Cert.Spec.mlp A0 A5 A6 A7 A8 (ix2 r q) := by
  subst h5 h6 h7 h8
  rw [pay_c, Cert.Spec.mlp_apply]
  simp only [h0]

/-- What point `t` writes back to the first output is block `t` of the whole-array function of the five arrays. -/
theorem flushed_z (c : Dev nD) (t : Fin cfg2.N) :
    (dat2 (F := Ideal) V c).flushed 9 t = ((cfg2.win 9).blk t).view.read (Elt Ideal)
      (Cert.Spec.mlp (n := 50000) (k := 32) (h := 32) (o := 32) (V c main_v83) (V c main_arg8) (V c main_v84) (V c main_arg10) (V c main_v85)) := by
  show (cfg2.win 9).cut (grid2.coords t) ((dat2 V c).after 9 t) = _
  rw [after2_9]
  unfold out2_9
  rw [View.canon_unit_zero hz]
  simp only [View.ld_unit_zero (S := S1000x32) hz, View.ld_unit_zero (S := S32x32) hz, View.ld_unit_zero (S := S1x32) hz]
  obtain ⟨e0, e1, e2, e3, e4, e5, e6, e7, e8, e9, e10, e11, e12, e13, e14, e15, e16, e17, e18, e19, e20, e21⟩ := idx_facts t
  have ht : t.val < 50 := t.isLt
  refine funext fun (j : S1000x32.Idx) => ?_
  obtain ⟨p, q, rfl⟩ : ∃ (p : Fin 1000) (q : Fin 32), j = ix2 p q := ⟨j 0, j 1, eq_ix2 j⟩
  have hp : p.val < 1000 := p.isLt
  show k2_pay3 (iblk2 V c 0 t) (iblk2 V c 1 t) (iblk2 V c 2 t) (iblk2 V c 3 t) (iblk2 V c 4 t) (ix2 p q)
    = Cert.Spec.mlp (n := 50000) (k := 32) (h := 32) (o := 32) (V c main_v83) (V c main_arg8) (V c main_v84) (V c main_arg10) (V c main_v85)
        (((cfg2.win 9).blk t).view.emb (ix2 p q))
  have hr : ((cfg2.win 9).blk t).view.emb (ix2 p q) = (ix2 (⟨t.val * 1000 + p.val, by omega⟩ : Fin 50000) q : S50000x32.Idx) := by
    funext a; apply Fin.ext
    match a with
    | ⟨0, _⟩ => show win2_9.index t (0 : Fin 2) * 1000 + 1 * p.val = t.val * 1000 + p.val; rw [e18]; omega
    | ⟨1, _⟩ => show win2_9.index t (1 : Fin 2) * 32 + 1 * q.val = q.val; rw [e19]; omega
  rw [hr]
  exact block_z _ _ _ _ _ _ _ _ _ _ _ p q (fun l => iblk_0 V c t p l _ rfl) (iblk_1 V c t) (iblk_2 V c t) (iblk_3 V c t) (iblk_4 V c t)

/-- What point `t` writes back to the second output is block `t` of the whole-array function of its five arrays. -/
theorem flushed_c (c : Dev nD) (t : Fin cfg2.N) :
    (dat2 (F := Ideal) V c).flushed 10 t = ((cfg2.win 10).blk t).view.read (Elt Ideal)
      (Cert.Spec.mlp (n := 50000) (k := 32) (h := 16) (o := 2) (V c main_v83) (V c main_arg12) (V c main_v86) (V c main_arg14) (V c main_v87)) := by
  show (cfg2.win 10).cut (grid2.coords t) ((dat2 V c).after 10 t) = _
  rw [after2_10]
  unfold out2_10
  rw [View.canon_unit_zero hz]
  simp only [View.ld_unit_zero (S := S1000x32) hz, View.ld_unit_zero (S := S32x16) hz, View.ld_unit_zero (S := S1x16) hz,
    View.ld_unit_zero (S := S16x2) hz, View.ld_unit_zero (S := S1x2) hz]
  obtain ⟨e0, e1, e2, e3, e4, e5, e6, e7, e8, e9, e10, e11, e12, e13, e14, e15, e16, e17, e18, e19, e20, e21⟩ := idx_facts t
  have ht : t.val < 50 := t.isLt
  refine funext fun (j : S1000x2.Idx) => ?_
  obtain ⟨p, q, rfl⟩ : ∃ (p : Fin 1000) (q : Fin 2), j = ix2 p q := ⟨j 0, j 1, eq_ix2 j⟩
  have hp : p.val < 1000 := p.isLt
  show k2_pay1 (k2_pay4 (iblk2 V c 0 t) (iblk2 V c 5 t) (iblk2 V c 6 t) (iblk2 V c 7 t)) (k2_pay5 (iblk2 V c 8 t)) (ix2 p q)
    = Cert.Spec.mlp (n := 50000) (k := 32) (h := 16) (o := 2) (V c main_v83) (V c main_arg12) (V c main_v86) (V c main_arg14) (V c main_v87)
        (((cfg2.win 10).blk t).view.emb (ix2 p q))
  have hr : ((cfg2.win 10).blk t).view.emb (ix2 p q) = (ix2 (⟨t.val * 1000 + p.val, by omega⟩ : Fin 50000) q : S50000x2.Idx) := by
    funext a; apply Fin.ext
    match a with
    | ⟨0, _⟩ => show win2_10.index t (0 : Fin 2) * 1000 + 1 * p.val = t.val * 1000 + p.val; rw [e20]; omega
    | ⟨1, _⟩ => show win2_10.index t (1 : Fin 2) * 2 + 1 * q.val = q.val; rw [e21]; omega
  rw [hr]
  exact block_c _ _ _ _ _ _ _ _ _ _ _ p q (fun l => iblk_0 V c t p l _ rfl) (iblk_5 V c t) (iblk_6 V c t) (iblk_7 V c t) (iblk_8 V c t)

/-- An index of the first output is in point `t`'s block iff each coordinate is in the block's range on its axis. -/
theorem mem_blk_z (t : Fin cfg2.N) (i : S50000x32.Idx) :
    i ∈ ((cfg2.win 9).blk t).view.set ↔ ∀ a : Fin 2, win2_9.index t a * S1000x32.size a ≤ (i a).val
      ∧ (i a).val < win2_9.index t a * S1000x32.size a + S1000x32.size a := by
  show i ∈ ((View.whole main_v88_0).slice (win2_9.rect t)).set ↔ _
  rw [View.set_slice_whole, Rect.mem_set_unit]
  exact Iff.rfl

/-- The same for the second output. -/
theorem mem_blk_c (t : Fin cfg2.N) (i : S50000x2.Idx) :
    i ∈ ((cfg2.win 10).blk t).view.set ↔ ∀ a : Fin 2, win2_10.index t a * S1000x2.size a ≤ (i a).val
      ∧ (i a).val < win2_10.index t a * S1000x2.size a + S1000x2.size a := by
  show i ∈ ((View.whole main_v88_1).slice (win2_10.rect t)).set ↔ _
  rw [View.set_slice_whole, Rect.mem_set_unit]
  exact Iff.rfl

/-- Every row of the first output is written by some point: row `r` lies in the block of point `r / 1000`. -/
theorem cover_z (i : S50000x32.Idx) : ∃ t : Fin cfg2.N, (cfg2.win 9).flush t = true ∧ i ∈ ((cfg2.win 9).blk t).view.set := by
  have hi0 : (i 0).val < 50000 := (i 0).isLt
  have hi1 : (i 1).val < 32 := (i 1).isLt
  obtain ⟨t, htv⟩ : ∃ t : Fin cfg2.N, t.val = (i 0).val / 1000 :=
    ⟨⟨(i 0).val / 1000, by rw [show cfg2.N = 50 from N_2]; omega⟩, rfl⟩
  obtain ⟨e0, e1, e2, e3, e4, e5, e6, e7, e8, e9, e10, e11, e12, e13, e14, e15, e16, e17, e18, e19, e20, e21⟩ := idx_facts t
  refine ⟨t, flush2_9 t, ?_⟩
  rw [mem_blk_z]
  intro a
  match a with
  | ⟨0, _⟩ =>
    show win2_9.index t (0 : Fin 2) * 1000 ≤ (i 0).val ∧ (i 0).val < win2_9.index t (0 : Fin 2) * 1000 + 1000
    rw [e18, htv]; omega
  | ⟨1, _⟩ =>
    show win2_9.index t (1 : Fin 2) * 32 ≤ (i 1).val ∧ (i 1).val < win2_9.index t (1 : Fin 2) * 32 + 32
    rw [e19]; omega

/-- Every row of the second output is written by some point, the same way. -/
theorem cover_c (i : S50000x2.Idx) : ∃ t : Fin cfg2.N, (cfg2.win 10).flush t = true ∧ i ∈ ((cfg2.win 10).blk t).view.set := by
  have hi0 : (i 0).val < 50000 := (i 0).isLt
  have hi1 : (i 1).val < 2 := (i 1).isLt
  obtain ⟨t, htv⟩ : ∃ t : Fin cfg2.N, t.val = (i 0).val / 1000 :=
    ⟨⟨(i 0).val / 1000, by rw [show cfg2.N = 50 from N_2]; omega⟩, rfl⟩
  obtain ⟨e0, e1, e2, e3, e4, e5, e6, e7, e8, e9, e10, e11, e12, e13, e14, e15, e16, e17, e18, e19, e20, e21⟩ := idx_facts t
  refine ⟨t, flush2_10 t, ?_⟩
  rw [mem_blk_c]
  intro a
  match a with
  | ⟨0, _⟩ =>
    show win2_10.index t (0 : Fin 2) * 1000 ≤ (i 0).val ∧ (i 0).val < win2_10.index t (0 : Fin 2) * 1000 + 1000
    rw [e20, htv]; omega
  | ⟨1, _⟩ =>
    show win2_10.index t (1 : Fin 2) * 2 ≤ (i 1).val ∧ (i 1).val < win2_10.index t (1 : Fin 2) * 2 + 2
    rw [e21]; omega

/-- After the launch the first output array is the two-layer head `relu (x·W₁ + b₁)·W₂ + b₂` of the feature array and the
    first head's weights and biases, as the launch found them: every point writes its block of rows of that one function,
    and the blocks cover the array. -/
theorem final_z (c : Dev nD) :
    (dat2 (F := Ideal) V c).arrAt 9 cfg2.N
      = Cert.Spec.mlp (n := 50000) (k := 32) (h := 32) (o := 32) (V c main_v83) (V c main_arg8) (V c main_v84) (V c main_arg10) (V c main_v85) :=
  (dat2 (F := Ideal) V c).arrAt_eq_of_cover 9 _ (fun t _ => flushed_z V c t) cover_z

/-- After the launch the second output array is the two-layer head of the feature array and the second head's weights and
    biases (hidden width 16, two columns). -/
theorem final_coord (c : Dev nD) :
    (dat2 (F := Ideal) V c).arrAt 10 cfg2.N
      = Cert.Spec.mlp (n := 50000) (k := 32) (h := 16) (o := 2) (V c main_v83) (V c main_arg12) (V c main_v86) (V c main_arg14) (V c main_v87) :=
  (dat2 (F := Ideal) V c).arrAt_eq_of_cover 10 _ (fun t _ => flushed_c V c t) cover_c

end Cert.KernelIdeal.Heads

end
-- ==== Proof.ReferenceLayers.lean ====
/-
  The reference program after message passing, layer by layer.

  Each of the four results below is read entry by entry: an entry of a layer is a maximum with zero of a sum of two
  finite contractions and a bias entry, exactly the entry the specification's `combine` has; an entry of a head is a
  contraction of rectified hidden entries plus a bias entry, the entry of `mlp`. The propagated feature arrays (the
  results of the scatter-adds) are never opened: they enter both sides as the same opaque arrays.
-/
import proofs.«100889_j45827301048543_2_alg».proof.Proof.Gen.ReferenceIdeal.Read
import proofs.«100889_j45827301048543_2_alg».proof.Proof.Spec
import Idealize.ShloMosaic.Lib.ValueIdx
import Idealize.ShloMosaic.PureOps.Ideal.Laws

noncomputable section

namespace Cert.ReferenceIdeal.Layers

open Cert.ReferenceIdeal Cert.ReferenceIdeal.Read Idealize.ShloMosaic Idealize.ShloMosaic.TcCoe Idealize.ShloMosaic.ValueIdx

/-- First layer. Entry `(p, q)`: the zero splat plus row `p` of the first propagated array against column `q` of the
    first weight, plus row `p` of the second propagated array against column `q` of the second weight, plus the bias
    at `q`, rectified. The only law used is `0 + a = a`. -/
theorem layer1 (x0 : (⟨S50000x128, .f32⟩ : BufTy).Contents (Elt Ideal)) (x1 : (⟨S2x800000, .i32⟩ : BufTy).Contents (Elt Ideal))
    (x2 x3 : (⟨S128x64, .f32⟩ : BufTy).Contents (Elt Ideal)) (x4 : (⟨S64, .f32⟩ : BufTy).Contents (Elt Ideal)) :
    val_main_v62 (F := Ideal) x0 x1 x2 x3 x4
      = Cert.Spec.combine (n := 50000) (k := 128) (o := 64) (val_main_v41 (F := Ideal) x0 x1) (val_main_v56 (F := Ideal) x0 x1)
          x2 x3 (val_main_v59 (F := Ideal) x4) := by
  funext i
  obtain ⟨p, q, rfl⟩ : ∃ (p : Fin 50000) (q : Fin 64), i = ix2 p q := ⟨i 0, i 1, eq_ix2 i⟩
  rw [Cert.Spec.combine_apply]
  -- the left operand of either product is read at row `p`, column `j`; the right at row `j`, column `q`
  have el1 : ∀ j : Fin 128, lidx_main_v42 (ix2 p q) j = ix2 p j := fun j =>
    funext fun a => Fin.ext (by match a with | ⟨0, _⟩ => rfl | ⟨1, _⟩ => rfl)
  have er1 : ∀ j : Fin 128, ridx_main_v42 (ix2 p q) j = ix2 j q := fun j =>
    funext fun a => Fin.ext (by match a with | ⟨0, _⟩ => rfl | ⟨1, _⟩ => rfl)
  have el2 : ∀ j : Fin 128, lidx_main_v57 (ix2 p q) j = ix2 p j := fun j =>
    funext fun a => Fin.ext (by match a with | ⟨0, _⟩ => rfl | ⟨1, _⟩ => rfl)
  have er2 : ∀ j : Fin 128, ridx_main_v57 (ix2 p q) j = ix2 j q := fun j =>
    funext fun a => Fin.ext (by match a with | ⟨0, _⟩ => rfl | ⟨1, _⟩ => rfl)
  -- the bias row is read at its only row, column `q`
  have eb : idx_main_v60 (ix2 p q) = ix2 (0 : Fin 1) q :=
    funext fun a => Fin.ext (by match a with | ⟨0, _⟩ => rfl | ⟨1, _⟩ => rfl)
  rw [val_main_v62_apply, val_main_v61_apply, val_main_v58_apply, val_main_v43_apply, val_main_v28_apply,
    val_main_cst_5_apply, val_main_v42_apply, val_main_v57_apply, val_main_v60_apply, val_main_call0_v0_apply,
    val_main_call0_cst_apply]
  simp only [el1, er1, el2, er2, eb, Ideal.addf_def, Ideal.maximumf_def, Ideal.ofBits_def, Ideal.ofBits_zero_f32, zero_add]

/-- Second layer: the same entry one layer later, over the propagated arrays of the first layer's result. -/
theorem layer2 (x0 : (⟨S50000x128, .f32⟩ : BufTy).Contents (Elt Ideal)) (x1 : (⟨S2x800000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal)) :
    val_main_v97 (F := Ideal) x0 x1 x2 x3 x4 x5 x6 x7
      = Cert.Spec.combine (n := 50000) (k := 64) (o := 32) (val_main_v76 (F := Ideal) x0 x1 x2 x3 x4)
          (val_main_v91 (F := Ideal) x0 x1 x2 x3 x4) x5 x6 (val_main_v94 (F := Ideal) x7) := by
  funext i
  obtain ⟨p, q, rfl⟩ : ∃ (p : Fin 50000) (q : Fin 32), i = ix2 p q := ⟨i 0, i 1, eq_ix2 i⟩
  rw [Cert.Spec.combine_apply]
  -- the left operand of either product is read at row `p`, column `j`; the right at row `j`, column `q`
  have el1 : ∀ j : Fin 64, lidx_main_v77 (ix2 p q) j = ix2 p j := fun j =>
    funext fun a => Fin.ext (by match a with | ⟨0, _⟩ => rfl | ⟨1, _⟩ => rfl)
  have er1 : ∀ j : Fin 64, ridx_main_v77 (ix2 p q) j = ix2 j q := fun j =>
    funext fun a => Fin.ext (by match a with | ⟨0, _⟩ => rfl | ⟨1, _⟩ => rfl)
  have el2 : ∀ j : Fin 64, lidx_main_v92 (ix2 p q) j = ix2 p j := fun j =>
    funext fun a => Fin.ext (by match a with | ⟨0, _⟩ => rfl | ⟨1, _⟩ => rfl)
  have er2 : ∀ j : Fin 64, ridx_main_v92 (ix2 p q) j = ix2 j q := fun j =>
    funext fun a => Fin.ext (by match a with | ⟨0, _⟩ => rfl | ⟨1, _⟩ => rfl)
  -- the bias row is read at its only row, column `q`
  have eb : idx_main_v95 (ix2 p q) = ix2 (0 : Fin 1) q :=
    funext fun a => Fin.ext (by match a with | ⟨0, _⟩ => rfl | ⟨1, _⟩ => rfl)
  rw [val_main_v97_apply, val_main_v96_apply, val_main_v93_apply, val_main_v78_apply, val_main_v63_apply,
    val_main_cst_12_apply, val_main_v77_apply, val_main_v92_apply, val_main_v95_apply, val_main_call1_v0_apply,
    val_main_call1_cst_apply]
  simp only [el1, er1, el2, er2, eb, Ideal.addf_def, Ideal.maximumf_def, Ideal.ofBits_def, Ideal.ofBits_zero_f32, zero_add]

/-- The hidden row of the first head: entry `(p, j)` is the rectified contraction of row `p` of the second layer's
    result with column `j` of the head's first weight, plus the first bias at `j`. -/
theorem hidden_z (x0 : (⟨S50000x128, .f32⟩ : BufTy).Contents (Elt Ideal)) (x1 : (⟨S2x800000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal))
    (p : Fin 50000) (j : Fin 32) :
    val_main_v102 (F := Ideal) x0 x1 x2 x3 x4 x5 x6 x7 x8 x9 (ix2 p j)
      = max ((∑ l : Fin 32, val_main_v97 (F := Ideal) x0 x1 x2 x3 x4 x5 x6 x7 (ix2 p l) * x8 (ix2 l j))
          + val_main_v99 (F := Ideal) x9 (ix2 (0 : Fin 1) j)) 0 := by
  have el : ∀ l : Fin 32, lidx_main_v98 (ix2 p j) l = ix2 p l := fun l =>
    funext fun a => Fin.ext (by match a with | ⟨0, _⟩ => rfl | ⟨1, _⟩ => rfl)
  have er : ∀ l : Fin 32, ridx_main_v98 (ix2 p j) l = ix2 l j := fun l =>
    funext fun a => Fin.ext (by match a with | ⟨0, _⟩ => rfl | ⟨1, _⟩ => rfl)
  have eb : idx_main_v100 (ix2 p j) = ix2 (0 : Fin 1) j :=
    funext fun a => Fin.ext (by match a with | ⟨0, _⟩ => rfl | ⟨1, _⟩ => rfl)
  rw [val_main_v102_apply, val_main_v101_apply, val_main_v98_apply, val_main_v100_apply, val_main_call2_v0_apply,
    val_main_call2_cst_apply]
  simp only [el, er, eb, Ideal.addf_def, Ideal.maximumf_def, Ideal.ofBits_def, Ideal.ofBits_zero_f32]

/-- First head. Entry `(p, q)`: the hidden row `p` contracted with column `q` of the head's second weight, plus the
    second bias at `q`; the hidden entries are rewritten under the sum. -/
theorem head_z (x0 : (⟨S50000x128, .f32⟩ : BufTy).Contents (Elt Ideal)) (x1 : (⟨S2x800000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal))
    (x10 : (⟨S32x32, .f32⟩ : BufTy).Contents (Elt Ideal)) (x11 : (⟨S32, .f32⟩ : BufTy).Contents (Elt Ideal)) :
    val_main_v106 (F := Ideal) x0 x1 x2 x3 x4 x5 x6 x7 x8 x9 x10 x11
      = Cert.Spec.mlp (n := 50000) (k := 32) (h := 32) (o := 32) (val_main_v97 (F := Ideal) x0 x1 x2 x3 x4 x5 x6 x7) x8
          (val_main_v99 (F := Ideal) x9) x10 (val_main_v104 (F := Ideal) x11) := by
  funext i
  obtain ⟨p, q, rfl⟩ : ∃ (p : Fin 50000) (q : Fin 32), i = ix2 p q := ⟨i 0, i 1, eq_ix2 i⟩
  rw [Cert.Spec.mlp_apply]
  have el : ∀ j : Fin 32, lidx_main_v103 (ix2 p q) j = ix2 p j := fun j =>
    funext fun a => Fin.ext (by match a with | ⟨0, _⟩ => rfl | ⟨1, _⟩ => rfl)
  have er : ∀ j : Fin 32, ridx_main_v103 (ix2 p q) j = ix2 j q := fun j =>
    funext fun a => Fin.ext (by match a with | ⟨0, _⟩ => rfl | ⟨1, _⟩ => rfl)
  have eb : idx_main_v105 (ix2 p q) = ix2 (0 : Fin 1) q :=
    funext fun a => Fin.ext (by match a with | ⟨0, _⟩ => rfl | ⟨1, _⟩ => rfl)
  rw [val_main_v106_apply, val_main_v103_apply, val_main_v105_apply, eb, Ideal.addf_def]
  simp only [el, er, hidden_z]

/-- The hidden row of the second head: as for the first, with sixteen hidden columns. -/
theorem hidden_coord (x0 : (⟨S50000x128, .f32⟩ : BufTy).Contents (Elt Ideal)) (x1 : (⟨S2x800000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal)) (x12 : (⟨S32x16, .f32⟩ : BufTy).Contents (Elt Ideal)) (x13 : (⟨S16, .f32⟩ : BufTy).Contents (Elt Ideal))
    (p : Fin 50000) (j : Fin 16) :
    val_main_v111 (F := Ideal) x0 x1 x2 x3 x4 x5 x6 x7 x12 x13 (ix2 p j)
      = max ((∑ l : Fin 32, val_main_v97 (F := Ideal) x0 x1 x2 x3 x4 x5 x6 x7 (ix2 p l) * x12 (ix2 l j))
          + val_main_v108 (F := Ideal) x13 (ix2 (0 : Fin 1) j)) 0 := by
  have el : ∀ l : Fin 32, lidx_main_v107 (ix2 p j) l = ix2 p l := fun l =>
    funext fun a => Fin.ext (by match a with | ⟨0, _⟩ => rfl | ⟨1, _⟩ => rfl)
  have er : ∀ l : Fin 32, ridx_main_v107 (ix2 p j) l = ix2 l j := fun l =>
    funext fun a => Fin.ext (by match a with | ⟨0, _⟩ => rfl | ⟨1, _⟩ => rfl)
  have eb : idx_main_v109 (ix2 p j) = ix2 (0 : Fin 1) j :=
    funext fun a => Fin.ext (by match a with | ⟨0, _⟩ => rfl | ⟨1, _⟩ => rfl)
  rw [val_main_v111_apply, val_main_v110_apply, val_main_v107_apply, val_main_v109_apply, val_main_call3_v0_apply,
    val_main_call3_cst_apply]
  simp only [el, er, eb, Ideal.addf_def, Ideal.maximumf_def, Ideal.ofBits_def, Ideal.ofBits_zero_f32]

/-- Second head. Entry `(p, q)`, `q` one of the two output columns. -/
theorem head_coord (x0 : (⟨S50000x128, .f32⟩ : BufTy).Contents (Elt Ideal)) (x1 : (⟨S2x800000, .i32⟩ : BufTy).Contents (Elt Ideal))
    (x2 x3 : (⟨S128x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal)) (x12 : (⟨S32x16, .f32⟩ : BufTy).Contents (Elt Ideal)) (x13 : (⟨S16, .f32⟩ : BufTy).Contents (Elt Ideal))
    (x14 : (⟨S16x2, .f32⟩ : BufTy).Contents (Elt Ideal)) (x15 : (⟨S2, .f32⟩ : BufTy).Contents (Elt Ideal)) :
    val_main_v115 (F := Ideal) x0 x1 x2 x3 x4 x5 x6 x7 x12 x13 x14 x15
      = Cert.Spec.mlp (n := 50000) (k := 32) (h := 16) (o := 2) (val_main_v97 (F := Ideal) x0 x1 x2 x3 x4 x5 x6 x7) x12
          (val_main_v108 (F := Ideal) x13) x14 (val_main_v113 (F := Ideal) x15) := by
  funext i
  obtain ⟨p, q, rfl⟩ : ∃ (p : Fin 50000) (q : Fin 2), i = ix2 p q := ⟨i 0, i 1, eq_ix2 i⟩
  rw [Cert.Spec.mlp_apply]
  have el : ∀ j : Fin 16, lidx_main_v112 (ix2 p q) j = ix2 p j := fun j =>
    funext fun a => Fin.ext (by match a with | ⟨0, _⟩ => rfl | ⟨1, _⟩ => rfl)
  have er : ∀ j : Fin 16, ridx_main_v112 (ix2 p q) j = ix2 j q := fun j =>
    funext fun a => Fin.ext (by match a with | ⟨0, _⟩ => rfl | ⟨1, _⟩ => rfl)
  have eb : idx_main_v114 (ix2 p q) = ix2 (0 : Fin 1) q :=
    funext fun a => Fin.ext (by match a with | ⟨0, _⟩ => rfl | ⟨1, _⟩ => rfl)
  rw [val_main_v115_apply, val_main_v112_apply, val_main_v114_apply, eb, Ideal.addf_def]
  simp only [el, er, hidden_coord]

end Cert.ReferenceIdeal.Layers

end
-- ==== Proof.Chain.lean ====
/-
  From launch to launch: every array the idealized kernel program computes is a stage of the reference.

  Each kernel launch computes its output one block of rows at a time; a row of the output depends only on the same row of
  the launch's inputs, so the whole output array is the row-wise function of the whole input arrays
  (`CombineA.final`, `CombineB.final`, `Heads.final_z`, `Heads.final_coord`). With the host operations read as the
  reference's stages (`HostReads`) and each of the reference's dense layers being the same row-wise function of its
  own stages (`Layers`), induction along the program gives: the first launch leaves the reference's first hidden
  layer, the second launch its second hidden layer, and the third launch's two outputs are the reference's two results.
-/
import proofs.«100889_j45827301048543_2_alg».proof.Proof.HostReads
import proofs.«100889_j45827301048543_2_alg».proof.Proof.CombineBlocksA
import proofs.«100889_j45827301048543_2_alg».proof.Proof.CombineBlocksB
import proofs.«100889_j45827301048543_2_alg».proof.Proof.HeadsBlocks
import proofs.«100889_j45827301048543_2_alg».proof.Proof.ReferenceLayers

set_option maxRecDepth 16384

noncomputable section

namespace Cert.KernelIdeal.Chain

open Cert.KernelIdeal Cert.KernelIdeal.Gen Cert.KernelIdeal.HostReads Idealize.ShloMosaic Idealize.ShloMosaic.TcCoe Idealize.SL.Sem
open Cert.ReferenceIdeal.Read

variable (m : (ℓ : Loc nD τ sig) → Buf (Elt Ideal) ℓ) (ρ : Dev nD → PrngReg)

/-- The first launch leaves the reference's first hidden layer `relu (A x · W₁ + A² x · W₂ + b)`. -/
theorem hidden1 (c : Dev nD) :
    W2 m ρ c (Proc.devRef .tc main_v55) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e0 : V1 m ρ c main_v40 = val_main_v41 (F := Ideal) (m ((c : Thread nD τ).loc main_arg0)) (m ((c : Thread nD τ).loc main_arg1)) := first_prop1 m ρ c
  have e1 : V1 m ρ c main_v53 = val_main_v56 (F := Ideal) (m ((c : Thread nD τ).loc main_arg0)) (m ((c : Thread nD τ).loc main_arg1)) := first_prop2 m ρ c
  have e2 : V1 m ρ c main_arg2 = m ((c : Thread nD τ).loc main_arg2) := first_arg2 m ρ c
  have e3 : V1 m ρ c main_arg3 = m ((c : Thread nD τ).loc main_arg3) := first_arg3 m ρ c
  have e4 : V1 m ρ c main_v54 = val_main_v59 (F := Ideal) (m ((c : Thread nD τ).loc main_arg4)) := first_bias m ρ c
  refine (W2_arr m ρ c 5).trans ((Cert.KernelIdeal.CombineA.final (V1 m ρ) c).trans ?_)
  rw [e0, e1, e2, e3, e4]
  exact (Cert.ReferenceIdeal.Layers.layer1 _ _ _ _ _).symm

/-- The second launch leaves the reference's second hidden layer. -/
theorem hidden2 (c : Dev nD) :
    W4 m ρ c (Proc.devRef .tc main_v83) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h := hidden1 m ρ c
  have e0 : V3 m ρ c main_v68 = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := second_prop1 m ρ c h
  have e1 : V3 m ρ c main_v81 = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := second_prop2 m ρ c h
  have e2 : V3 m ρ c main_arg5 = m ((c : Thread nD τ).loc main_arg5) := second_arg5 m ρ c
  have e3 : V3 m ρ c main_arg6 = m ((c : Thread nD τ).loc main_arg6) := second_arg6 m ρ c
  have e4 : V3 m ρ c main_v82 = val_main_v94 (F := Ideal) (m ((c : Thread nD τ).loc main_arg7)) := second_bias m ρ c
  refine (W4_arr m ρ c 5).trans ((Cert.KernelIdeal.CombineB.final (V3 m ρ) c).trans ?_)
  rw [e0, e1, e2, e3, e4]
  exact (Cert.ReferenceIdeal.Layers.layer2 _ _ _ _ _ _ _ _).symm

/-- The third launch's first output is the reference's projection head of the second hidden layer. -/
theorem out_z (c : Dev nD) :
    W6 m ρ c (Proc.devRef .tc main_v88_0) = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have e0 : V5 m ρ c main_v83 = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (third_hidden m ρ c).trans (hidden2 m ρ c)
  have e1 : V5 m ρ c main_arg8 = m ((c : Thread nD τ).loc main_arg8) := third_arg8 m ρ c
  have e2 : V5 m ρ c main_v84 = val_main_v99 (F := Ideal) (m ((c : Thread nD τ).loc main_arg9)) := third_bias_v84 m ρ c
  have e3 : V5 m ρ c main_arg10 = m ((c : Thread nD τ).loc main_arg10) := third_arg10 m ρ c
  have e4 : V5 m ρ c main_v85 = val_main_v104 (F := Ideal) (m ((c : Thread nD τ).loc main_arg11)) := third_bias_v85 m ρ c
  refine (W6_arr m ρ c 9).trans ((Cert.KernelIdeal.Heads.final_z (V5 m ρ) c).trans ?_)
  rw [e0, e1, e2, e3, e4]
  exact (Cert.ReferenceIdeal.Layers.head_z _ _ _ _ _ _ _ _ _ _ _ _).symm

/-- Its second output is the reference's coordinate head of the second hidden layer. -/
theorem out_coord (c : Dev nD) :
    W6 m ρ c (Proc.devRef .tc main_v88_1) = val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) := by
  have e0 : V5 m ρ c main_v83 = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (third_hidden m ρ c).trans (hidden2 m ρ c)
  have e1 : V5 m ρ c main_arg12 = m ((c : Thread nD τ).loc main_arg12) := third_arg12 m ρ c
  have e2 : V5 m ρ c main_v86 = val_main_v108 (F := Ideal) (m ((c : Thread nD τ).loc main_arg13)) := third_bias_v86 m ρ c
  have e3 : V5 m ρ c main_arg14 = m ((c : Thread nD τ).loc main_arg14) := third_arg14 m ρ c
  have e4 : V5 m ρ c main_v87 = val_main_v113 (F := Ideal) (m ((c : Thread nD τ).loc main_arg15)) := third_bias_v87 m ρ c
  refine (W6_arr m ρ c 10).trans ((Cert.KernelIdeal.Heads.final_coord (V5 m ρ) c).trans ?_)
  rw [e0, e1, e2, e3, e4]
  exact (Cert.ReferenceIdeal.Layers.head_coord _ _ _ _ _ _ _ _ _ _ _ _).symm

end Cert.KernelIdeal.Chain

end
-- ==== Proof.lean ====
/-
  A two-layer higher-order graph convolution network with two perceptron heads: the tiled kernel program against its
  plain reference, over the extended reals.

  Both programs build the normalised adjacency operator `A = D^(-1/2) (Adj + I) D^(-1/2)` from the edge list with the
  same host operations and apply it by the same gather, scale and scatter-add. They differ only in the dense part: the
  reference computes each layer as `relu (((0 + A h · W₁) + A² h · W₂) + b)` on whole arrays, the kernel program
  computes `relu ((A h · W₁ + A² h · W₂) + b)` one block of rows at a time with the inputs rounded to a narrower float
  format first; and likewise the two heads `relu (h · W + b) · W' + b'`. Over the extended reals a change of float format
  is the identity, a matrix product is a plain finite sum whichever way it is blocked (a row of the result depends on the
  same row of the left factor only), and `0 + a = a` holds at the infinities too; so no finiteness of the inputs is
  used, and the precondition is never opened.

  The modules: `Spec` states the two row-wise functions; `CombineBlocksA`, `CombineBlocksB`, `HeadsBlocks` show
  that each launch's output array is that function of the launch's input arrays; `ReferenceLayers` shows the same of
  the reference's stages; `HostReads` identifies the kernel program's host operations with the reference's (`LibRowOfVector`: a bias reshaped to
  one row is the bias broadcast to one row);
  `Chain` puts them in order; `KernelRun` is the kernel program's run with its results named. Here the five claims are
  assembled.
-/
import proofs.«100889_j45827301048543_2_alg».proof.Defs
import proofs.«100889_j45827301048543_2_alg».proof.Proof.Gen.Kernel
import proofs.«100889_j45827301048543_2_alg».proof.Proof.Gen.Kernel.Skeleton
import proofs.«100889_j45827301048543_2_alg».proof.Proof.Gen.Kernel.Launch
import proofs.«100889_j45827301048543_2_alg».proof.Proof.Gen.Kernel.Points
import proofs.«100889_j45827301048543_2_alg».proof.Proof.Gen.Kernel.Frame
import proofs.«100889_j45827301048543_2_alg».proof.Proof.Gen.KernelIdeal
import proofs.«100889_j45827301048543_2_alg».proof.Proof.Gen.KernelIdeal.Skeleton
import proofs.«100889_j45827301048543_2_alg».proof.Proof.Gen.KernelIdeal.Launch
import proofs.«100889_j45827301048543_2_alg».proof.Proof.Gen.KernelIdeal.Points
import proofs.«100889_j45827301048543_2_alg».proof.Proof.Gen.KernelIdeal.Frame
import proofs.«100889_j45827301048543_2_alg».proof.Proof.Gen.ReferenceIdeal
import proofs.«100889_j45827301048543_2_alg».proof.Proof.Gen.ReferenceIdeal.Run
import proofs.«100889_j45827301048543_2_alg».proof.Proof.Gen.ReferenceIdeal.Read
import proofs.«100889_j45827301048543_2_alg».proof.Proof.Gen.Pre_finite_inputs
import proofs.«100889_j45827301048543_2_alg».proof.Proof.KernelRun
import proofs.«100889_j45827301048543_2_alg».proof.Proof.Chain
import Idealize.ShloMosaic.Adequacy
import Idealize.ShloMosaic.Init

noncomputable section

namespace Cert.Proof

open Idealize.ShloMosaic Idealize.SL.Sem

/-- The word-level kernel program terminates without a fault and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the idealized reference: its run, with the two results forgotten. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel program: there is nothing to preserve. -/
theorem preserves : Cert.preserves_Kernel_KernelIdeal := trivial

/-- From memories that agree on the sixteen arguments, both idealized programs end with the coordinates array at the
    reference's coordinate-head stage of the arguments and the projection array at its projection-head stage: the kernel
    program by the chain of its launches, the reference by its own run. -/
theorem algebraic : Cert.algebraic_KernelIdeal_ReferenceIdeal := by
  intro m ρ m' ρ' _ hagree
  refine ⟨fun c => Cert.ReferenceIdeal.Read.val_main_v115 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.Read.val_main_v106 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c =>
      ⟨(h c).1.trans (Cert.KernelIdeal.Chain.out_coord m ρ c), (h c).2.1.trans (Cert.KernelIdeal.Chain.out_z m ρ c), (h c).2.2⟩)
      (Cert.KernelIdeal.Outputs.run m ρ)
  · refine (θ_run Cert.ReferenceIdeal.defs _ _).mono (fun r h c => ⟨?_, ?_, (h c).2.2⟩) (Cert.ReferenceIdeal.Value.run (F := Ideal) m' ρ')
    · obtain ⟨e0, e1, e2, e3, e4, e5, e6, e7, e8, e9, e10, e11, e12, e13, e14, e15⟩ := hagree c
      rw [(h c).1, Cert.ReferenceIdeal.Read.val_main_v115_eq, e0, e1, e2, e3, e4, e5, e6, e7, e12, e13, e14, e15]
    · obtain ⟨e0, e1, e2, e3, e4, e5, e6, e7, e8, e9, e10, e11, e12, e13, e14, e15⟩ := hagree c
      rw [(h c).2.1, Cert.ReferenceIdeal.Read.val_main_v106_eq, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
